-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x2048x16 : Shape := ⟨3, ![2048, 2048, 16]⟩
abbrev S2048x16 : Shape := ⟨2, ![2048, 16]⟩
abbrev S16x2048 : Shape := ⟨2, ![16, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x2048x16 : S_.BroadcastsInDim S2048x2048x16 (![] : Fin 0 → Fin S2048x2048x16.rank)
  reducesTo_S2048x2048x16_S_d0_1_2 : S2048x2048x16.ReducesTo [0, 1, 2] S_
  bcast_S_S2048x16 : S_.BroadcastsInDim S2048x16 (![] : Fin 0 → Fin S2048x16.rank)
  reducesTo_S2048x16_S_d0_1 : S2048x16.ReducesTo [0, 1] S_
  bcast_S_S16x2048 : S_.BroadcastsInDim S16x2048 (![] : Fin 0 → Fin S16x2048.rank)
  reducesTo_S16x2048_S_d0_1 : S16x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S16x2048 .f32) (main_arg5 : FVec F S2048x2048 .f32) (main_arg6 : FVec F S2048 .f32) (main_arg7 : FVec F S2048 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S16x2048 .f32 := Host.absf main_arg4
  let main_cst_6 : FVec F S_ .f32 := constant S_ .f32 0x7F800000#32
  let main_v20 : FVec F S16x2048 .f32 := broadcastInDim S16x2048 ![] bcast_S_S16x2048 main_cst_6
  let main_v21 : IVec S16x2048 1 := cmpf .olt main_v19 main_v20
  let main_c_7 : IVec S_ 1 := constantI S_ 1 1#1
  let main_v22 : IVec S_ 1 := (fun x v => Host.reduce IntOp.andi x v reducesTo_S16x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_v33

def fn {F : FTy → Type} [FloatOps F] (main_arg0 : FVec F S2048x2048 .f32) (main_arg1 : FVec F S2048x2048x16 .f32) (main_arg2 : FVec F S2048x16 .f32) (main_arg3 : FVec F S16x2048 .f32) (main_arg4 : FVec F S16x2048 .f32) (main_arg5 : FVec F S2048x2048 .f32) (main_arg6 : FVec F S2048 .f32) (main_arg7 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048x16 .f32 := Host.absf main_arg1
  let main_cst_0 : FVec F S_ .f32 := constant S_ .f32 0x7F800000#32
  let main_v5 : FVec F S2048x2048x16 .f32 := broadcastInDim S2048x2048x16 ![] bcast_S_S2048x2048x16 main_cst_0
  let main_v6 : IVec S2048x2048x16 1 := cmpf .olt main_v4 main_v5
  let main_c_1 : IVec S_ 1 := constantI S_ 1 1#1
  let main_v7 : IVec S_ 1 := (fun x v => Host.reduce IntOp.andi x v reducesTo_S2048x2048x16_S_d0_1_2 h_S_) main_v6 main_c_1
  let main_v8 : IVec S_ 1 := andi main_v3 main_v7
  let main_v9 : FVec F S2048x16 .f32 := Host.absf main_arg2
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_arg5 main_arg6 main_arg7 main_v13 main_v16
-- ==== Kernel.lean ====
abbrev S2048x2048 : Shape := ⟨2, ![2048, 2048]⟩
abbrev S2048x2048x16 : Shape := ⟨3, ![2048, 2048, 16]⟩
abbrev S2048x16 : Shape := ⟨2, ![2048, 16]⟩
abbrev S16x2048 : Shape := ⟨2, ![16, 2048]⟩
abbrev S2048 : Shape := ⟨1, ![2048]⟩
abbrev S1x2048 : Shape := ⟨2, ![1, 2048]⟩
abbrev S256x2048 : Shape := ⟨2, ![256, 2048]⟩
abbrev S256x16 : Shape := ⟨2, ![256, 16]⟩
abbrev S2048x32768 : Shape := ⟨2, ![2048, 32768]⟩
abbrev S1x32768 : Shape := ⟨2, ![1, 32768]⟩
abbrev S128x128 : Shape := ⟨2, ![128, 128]⟩
abbrev S_ : Shape := ⟨0, ![]⟩
abbrev S128x128x16 : Shape := ⟨3, ![128, 128, 16]⟩
abbrev S128x2048 : Shape := ⟨2, ![128, 2048]⟩
abbrev S16x16 : Shape := ⟨2, ![16, 16]⟩
abbrev S1x16x1x16 : Shape := ⟨4, ![1, 16, 1, 16]⟩
abbrev S1x16x128x16 : Shape := ⟨4, ![1, 16, 128, 16]⟩
abbrev S2048x128 : Shape := ⟨2, ![2048, 128]⟩
abbrev S256x128 : Shape := ⟨2, ![256, 128]⟩
abbrev S1x128 : Shape := ⟨2, ![1, 128]⟩

abbrev nBuf : Space → Nat
  | .hbm => 45
  | .vmem => 33
  | .smem => 0
  | _ => 0

abbrev bufTy : (tb : Table) → Fin (tcTables nBuf tb) → BufTy
  | .hbm, ⟨0, _⟩ => ⟨S2048x2048, .f32⟩
  | .hbm, ⟨1, _⟩ => ⟨S2048x2048x16, .f32⟩
  | .hbm, ⟨2, _⟩ => ⟨S2048x16, .f32⟩
  | .hbm, ⟨3, _⟩ => ⟨S16x2048, .f32⟩
  | .hbm, ⟨4, _⟩ => ⟨S16x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x16, .f32⟩
  | .hbm, ⟨9, _⟩ => ⟨S2048x16, .f32⟩
  | .hbm, ⟨10, _⟩ => ⟨S1x2048, .f32⟩
  | .hbm, ⟨11, _⟩ => ⟨S1x2048, .f32⟩
  | .hbm, ⟨12, _⟩ => ⟨S2048x2048, .bf16⟩
  | .hbm, ⟨13, _⟩ => ⟨S16x2048, .bf16⟩
  | .hbm, ⟨14, _⟩ => ⟨S16x2048, .bf16⟩
  | .hbm, ⟨15, _⟩ => ⟨S2048x2048, .f32⟩
  | .hbm, ⟨16, _⟩ => ⟨S2048x16, .f32⟩
  | .hbm, ⟨17, _⟩ => ⟨S2048x16, .f32⟩
  | .hbm, ⟨18, _⟩ => ⟨S2048x32768, .f32⟩
  | .hbm, ⟨19, _⟩ => ⟨S1x32768, .f32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S128x128, .f32⟩
  | .hbm, ⟨27, _⟩ => ⟨S128x128x16, .f32⟩
  | .hbm, ⟨28, _⟩ => ⟨S128x2048, .f32⟩
  | .hbm, ⟨29, _⟩ => ⟨S128x2048, .bf16⟩
  | .hbm, ⟨30, _⟩ => ⟨S16x16, .i32⟩
  | .hbm, ⟨31, _⟩ => ⟨S16x16, .i32⟩
  | .hbm, ⟨32, _⟩ => ⟨S_, .i32⟩
  | .hbm, ⟨33, _⟩ => ⟨S16x16, .i32⟩
  | .hbm, ⟨34, _⟩ => ⟨S16x16, .i32⟩
  | .hbm, ⟨35, _⟩ => ⟨S16x16, .i1⟩
  | .hbm, ⟨36, _⟩ => ⟨S16x16, .f32⟩
  | .hbm, ⟨37, _⟩ => ⟨S1x16x1x16, .f32⟩
  | .hbm, ⟨38, _⟩ => ⟨S1x16x128x16, .f32⟩
  | .hbm, ⟨39, _⟩ => ⟨S16x2048, .f32⟩
  | .hbm, ⟨40, _⟩ => ⟨S16x2048, .bf16⟩
  | .hbm, ⟨41, _⟩ => ⟨S2048x128, .bf16⟩
  | .hbm, ⟨42, _⟩ => ⟨S2048x2048, .f32⟩
  | .hbm, ⟨43, _⟩ => ⟨S2048x32768, .f32⟩
  | .hbm, ⟨44, _⟩ => ⟨S2048x2048x16, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S16x2048, .bf16⟩
  | .local _ .vmem, ⟨4, _⟩ => ⟨S16x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x16, .f32⟩
  | .local _ .vmem, ⟨9, _⟩ => ⟨S256x16, .f32⟩
  | .local _ .vmem, ⟨10, _⟩ => ⟨S256x16, .f32⟩
  | .local _ .vmem, ⟨11, _⟩ => ⟨S256x16, .f32⟩
  | .local _ .vmem, ⟨12, _⟩ => ⟨S256x128, .f32⟩
  | .local _ .vmem, ⟨13, _⟩ => ⟨S256x128, .f32⟩
  | .local _ .vmem, ⟨14, _⟩ => ⟨S256x2048, .f32⟩
  | .local _ .vmem, ⟨15, _⟩ => ⟨S256x2048, .f32⟩
  | .local _ .vmem, ⟨16, _⟩ => ⟨S256x128, .f32⟩
  | .local _ .vmem, ⟨17, _⟩ => ⟨S256x128, .f32⟩
  | .local _ .vmem, ⟨18, _⟩ => ⟨S256x16, .f32⟩
  | .local _ .vmem, ⟨19, _⟩ => ⟨S256x16, .f32⟩
  | .local _ .vmem, ⟨20, _⟩ => ⟨S256x16, .f32⟩
  | .local _ .vmem, ⟨21, _⟩ => ⟨S256x16, .f32⟩
  | .local _ .vmem, ⟨22, _⟩ => ⟨S1x2048, .f32⟩
  | .local _ .vmem, ⟨23, _⟩ => ⟨S1x2048, .f32⟩
  | .local _ .vmem, ⟨24, _⟩ => ⟨S1x128, .f32⟩
  | .local _ .vmem, ⟨25, _⟩ => ⟨S1x128, .f32⟩
  | .local _ .vmem, ⟨26, _⟩ => ⟨S128x2048, .bf16⟩
  | .local _ .vmem, ⟨27, _⟩ => ⟨S16x2048, .bf16⟩
  | .local _ .vmem, ⟨28, _⟩ => ⟨S2048x128, .bf16⟩
  | .local _ .vmem, ⟨29, _⟩ => ⟨S256x128, .f32⟩
  | .local _ .vmem, ⟨30, _⟩ => ⟨S256x128, .f32⟩
  | .local _ .vmem, ⟨31, _⟩ => ⟨S256x2048, .f32⟩
  | .local _ .vmem, ⟨32, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem10_1 : DmaSem sig := 30
abbrev cc1_sem11_0 : DmaSem sig := 31
abbrev cc1_sem11_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S256x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 1 → Memref sig .tc .vmem S128x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S16x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S2048x128 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x2048 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

class Facts₀ : Prop where
  shapeCasts_S2048_S1x2048 : S2048.ShapeCasts S1x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x16_S256x16_0_0 : ∀ a, (![0, 0] : Fin 2 → Nat) a + S256x16.size a ≤ S256x16.size a
  h_S256x16 : 0 < S256x16.numel
  shapeCasts_S2048x2048x16_S2048x32768 : S2048x2048x16.ShapeCasts S2048x32768
  shapeCasts_S2048x16_S1x32768 : S2048x16.ShapeCasts S1x32768
  bcast_S_S128x128 : S_.BroadcastsInDim S128x128 (![] : Fin 0 → Fin S128x128.rank)
  bcast_S128x128_S128x128x16_0_1 : S128x128.BroadcastsInDim S128x128x16 (![0, 1] : Fin 2 → Fin S128x128x16.rank)
  shapeCasts_S128x128x16_S128x2048 : S128x128x16.ShapeCasts S128x2048
  bcast_S_S16x16 : S_.BroadcastsInDim S16x16 (![] : Fin 0 → Fin S16x16.rank)
  shapeCasts_S16x16_S1x16x1x16 : S16x16.ShapeCasts S1x16x1x16
  bcast_S1x16x1x16_S1x16x128x16_0_1_2_3 : S1x16x1x16.BroadcastsInDim S1x16x128x16 (![0, 1, 2, 3] : Fin 4 → Fin S1x16x128x16.rank)
  shapeCasts_S1x16x128x16_S16x2048 : S1x16x128x16.ShapeCasts S16x2048
  transposes_S128x2048_S2048x128_1_0 : S128x2048.Transposes [1, 0] S2048x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S256x16_S256x16 : S256x16.ShapeCasts S256x16
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S256x2048_S256x2048 : S256x2048.ShapeCasts S256x2048
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S256x128 : S1x128.Broadcasts S256x128
  shapeCasts_S2048x32768_S2048x2048x16 : S2048x32768.ShapeCasts S2048x2048x16
  dot_S256x2048_S2048x2048_S256x2048_1_1_0_0_n_n_wf : DotDims.WF S256x2048 S2048x2048 S256x2048 [1] [1] [0] [0] [] []
  dot_S256x2048_S16x2048_S256x16_1_1_0_0_n_n_wf : DotDims.WF S256x2048 S16x2048 S256x16 [1] [1] [0] [0] [] []
  dot_S256x128_S128x2048_S256x2048_1_0_0_1_n_n_wf : DotDims.WF S256x128 S128x2048 S256x2048 [1] [0] [0] [1] [] []
  dot_S256x16_S16x2048_S256x2048_1_0_0_1_n_n_wf : DotDims.WF S256x16 S16x2048 S256x2048 [1] [0] [0] [1] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x2048.size a ≤ S16x2048.size a
  hwx0_2 : ∀ i : grid0.Coords, EltTy.bits .bf16 = 32 ∨ (Rect.block (s := S16x2048) S16x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x2048.size a
  hwx0_3 : ∀ i : grid0.Coords, EltTy.bits .bf16 = 32 ∨ (Rect.block (s := S16x2048) S16x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .f32 = 32 ∨ (Rect.block (s := S2048x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x16.size a ≤ S2048x16.size a
  hwx0_6 : ∀ i : grid0.Coords, EltTy.bits .f32 = 32 ∨ (Rect.block (s := S2048x16) S256x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x16.size a ≤ S2048x16.size a
  hwx0_7 : ∀ i : grid0.Coords, EltTy.bits .f32 = 32 ∨ (Rect.block (s := S2048x16) S256x16.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S2048x2048.size a
  hwx1_0 : ∀ i : grid1.Coords, EltTy.bits .f32 = 32 ∨ (Rect.block (s := S2048x2048) S256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S2048x32768.size a
  hwx1_1 : ∀ i : grid1.Coords, EltTy.bits .f32 = 32 ∨ (Rect.block (s := S2048x32768) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S2048x2048.size a
  hwx1_2 : ∀ i : grid1.Coords, EltTy.bits .f32 = 32 ∨ (Rect.block (s := S2048x2048) S256x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x16.size a ≤ S2048x16.size a
  hwx1_3 : ∀ i : grid1.Coords, EltTy.bits .f32 = 32 ∨ (Rect.block (s := S2048x16) S256x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x16.size a ≤ S2048x16.size a
  hwx1_4 : ∀ i : grid1.Coords, EltTy.bits .f32 = 32 ∨ (Rect.block (s := S2048x16) S256x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x32768.size a
  hwx1_5 : ∀ i : grid1.Coords, EltTy.bits .f32 = 32 ∨ (Rect.block (s := S1x32768) S1x2048.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x2048.size a
  hwx1_6 : ∀ i : grid1.Coords, EltTy.bits .f32 = 32 ∨ (Rect.block (s := S1x2048) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x2048.size a ≤ S128x2048.size a
  hwx1_7 : ∀ i : grid1.Coords, EltTy.bits .bf16 = 32 ∨ (Rect.block (s := S128x2048) S128x2048.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16x2048.size a ≤ S16x2048.size a
  hwx1_8 : ∀ i : grid1.Coords, EltTy.bits .bf16 = 32 ∨ (Rect.block (s := S16x2048) S16x2048.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S2048x128.size a ≤ S2048x128.size a
  hwx1_9 : ∀ i : grid1.Coords, EltTy.bits .bf16 = 32 ∨ (Rect.block (s := S2048x128) S2048x128.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x128.size a ≤ S2048x2048.size a
  hwx1_10 : ∀ i : grid1.Coords, EltTy.bits .f32 = 32 ∨ (Rect.block (s := S2048x2048) S256x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S256x2048.size a ≤ S2048x32768.size a
  hwx1_11 : ∀ i : grid1.Coords, EltTy.bits .f32 = 32 ∨ (Rect.block (s := S2048x32768) S256x2048.size (cc1_transform_11 i) (hinb1_11 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S16x2048_S256x16_1_1_0_0_n_n : DotDims S256x2048 S16x2048 S256x16 where
  lhsContracting := [1]
  rhsContracting := [1]
  lhsNonContracting := [0]
  rhsNonContracting := [0]
  lhsBatch := []
  rhsBatch := []
  wf := dot_S256x2048_S16x2048_S256x16_1_1_0_0_n_n_wf
def dot_S256x128_S128x2048_S256x2048_1_0_0_1_n_n : DotDims S256x128 S128x2048 S256x2048 where
  lhsContracting := [1]
  rhsContracting := [0]
  lhsNonContracting := [0]
  rhsNonContracting := [1]
  lhsBatch := []
  rhsBatch := []
  wf := dot_S256x128_S128x2048_S256x2048_1_0_0_1_n_n_wf
def dot_S256x16_S16x2048_S256x2048_1_0_0_1_n_n : DotDims S256x16 S16x2048 S256x2048 where
  lhsContracting := [1]
  rhsContracting := [0]
  lhsNonContracting := [0]
  rhsNonContracting := [1]
  lhsBatch := []
  rhsBatch := []
  wf := dot_S256x16_S16x2048_S256x2048_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_0) S256x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_1) S256x16.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_2) S256x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7_0) S256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7_1) S256x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7_2) S256x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x2048.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v18) S128x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S16x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29) S2048x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v30_0) S256x128.size cc1_transform_10 reads1_10 true false 2 stage1_10 sem1_10
    hrank1 hreads1_10 hinb1_10 nbuf1_10 (Memref.isWhole_whole _) hwx1_10 hstage1_10

abbrev win1_11 : Pipeline.Window sig grid1 :=
  Pipeline.Window.ofSpec (Memref.whole main_v30_1) S256x2048.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S2048x2048 : Shape := ⟨2, ![2048, 2048]⟩
abbrev S2048x2048x16 : Shape := ⟨3, ![2048, 2048, 16]⟩
abbrev S2048x16 : Shape := ⟨2, ![2048, 16]⟩
abbrev S16x2048 : Shape := ⟨2, ![16, 2048]⟩
abbrev S2048 : Shape := ⟨1, ![2048]⟩
abbrev S1x2048 : Shape := ⟨2, ![1, 2048]⟩
abbrev S_ : Shape := ⟨0, ![]⟩
abbrev S2048x2048x1 : Shape := ⟨3, ![2048, 2048, 1]⟩
abbrev S1x2048x16 : Shape := ⟨3, ![1, 2048, 16]⟩
abbrev S2048x1x16 : Shape := ⟨3, ![2048, 1, 16]⟩

abbrev nBuf : Space → Nat
  | .hbm => 58
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048x16, .f32⟩
  | .hbm, ⟨2, _⟩ => ⟨S2048x16, .f32⟩
  | .hbm, ⟨3, _⟩ => ⟨S16x2048, .f32⟩
  | .hbm, ⟨4, _⟩ => ⟨S16x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x16, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S2048x16, .f32⟩
  | .hbm, ⟨13, _⟩ => ⟨S2048x16, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .i1⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048x1, .f32⟩
  | .hbm, ⟨34, _⟩ => ⟨S1x2048x16, .f32⟩
  | .hbm, ⟨35, _⟩ => ⟨S2048x2048x16, .f32⟩
  | .hbm, ⟨36, _⟩ => ⟨S2048x2048x16, .f32⟩
  | .hbm, ⟨37, _⟩ => ⟨S2048x2048x16, .f32⟩
  | .hbm, ⟨38, _⟩ => ⟨S2048x2048x16, .f32⟩
  | .hbm, ⟨39, _⟩ => ⟨S2048x2048x1, .f32⟩
  | .hbm, ⟨40, _⟩ => ⟨S2048x1x16, .f32⟩
  | .hbm, ⟨41, _⟩ => ⟨S2048x2048x16, .f32⟩
  | .hbm, ⟨42, _⟩ => ⟨S2048x2048x16, .f32⟩
  | .hbm, ⟨43, _⟩ => ⟨S2048x2048x16, .f32⟩
  | .hbm, ⟨44, _⟩ => ⟨S2048x2048x16, .f32⟩
  | .hbm, ⟨45, _⟩ => ⟨S2048x2048x1, .f32⟩
  | .hbm, ⟨46, _⟩ => ⟨S2048x2048x16, .f32⟩
  | .hbm, ⟨47, _⟩ => ⟨S2048x2048x16, .f32⟩
  | .hbm, ⟨48, _⟩ => ⟨S2048x2048x16, .f32⟩
  | .hbm, ⟨49, _⟩ => ⟨S2048x1x16, .f32⟩
  | .hbm, ⟨50, _⟩ => ⟨S2048x2048x16, .f32⟩
  | .hbm, ⟨51, _⟩ => ⟨S2048x2048x16, .f32⟩
  | .hbm, ⟨52, _⟩ => ⟨S_, .f32⟩
  | .hbm, ⟨53, _⟩ => ⟨S2048x2048, .f32⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  transposes_S16x2048_S2048x16_1_0 : S16x2048.Transposes [1, 0] S2048x16
  transposes_S2048x2048_S2048x2048_1_0 : S2048x2048.Transposes [1, 0] S2048x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S2048x16_S1x2048x16_1_2 : S2048x16.BroadcastsInDim S1x2048x16 (![1, 2] : Fin 2 → Fin S1x2048x16.rank)
  bcast_S2048x2048x1_S2048x2048x16_0_1_2 : S2048x2048x1.BroadcastsInDim S2048x2048x16 (![0, 1, 2] : Fin 3 → Fin S2048x2048x16.rank)
  bcast_S1x2048x16_S2048x2048x16_0_1_2 : S1x2048x16.BroadcastsInDim S2048x2048x16 (![0, 1, 2] : Fin 3 → Fin S2048x2048x16.rank)
  bcast_S2048x16_S2048x1x16_0_2 : S2048x16.BroadcastsInDim S2048x1x16 (![0, 2] : Fin 2 → Fin S2048x1x16.rank)
  bcast_S2048x1x16_S2048x2048x16_0_1_2 : S2048x1x16.BroadcastsInDim S2048x2048x16 (![0, 1, 2] : Fin 3 → Fin S2048x2048x16.rank)
  reducesTo_S2048x2048x16_S2048x2048_d2 : S2048x2048x16.ReducesTo [2] S2048x2048
  h_S_ : 0 < S_.numel
  dot_S2048x2048_S2048x16_S2048x16_1_0_0_1_n_n_wf : DotDims.WF S2048x2048 S2048x16 S2048x16 [1] [0] [0] [1] [] []
  dot_S2048x2048_S2048x2048_S2048x2048_1_0_0_1_n_n_wf : DotDims.WF S2048x2048 S2048x2048 S2048x2048 [1] [0] [0] [1] [] []

variable [Facts₀]

def dot_S2048x2048_S2048x16_S2048x16_1_0_0_1_n_n : DotDims S2048x2048 S2048x16 S2048x16 where
  lhsContracting := [1]
  rhsContracting := [0]
  lhsNonContracting := [0]
  rhsNonContracting := [1]
  lhsBatch := []
  rhsBatch := []
  wf := dot_S2048x2048_S2048x16_S2048x16_1_0_0_1_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf

class Facts : Prop extends Facts₀ where

variable [Facts]
-- ==== Proof.KernelRun.lean ====
/-
  The idealized kernel program's run with its two results named.

  The program is five segments: a stretch of host operations, the projection region, a second stretch, the
  state-update region, and one last reshape. The buffer contents at the segment boundaries are a fold from the
  launch memory; after the last segment every unscoped buffer holds the last boundary's contents. Reading that
  fact at the two result buffers (and at the eight arguments, which no segment writes) gives the run below:
  every weakly fair execution terminates, faults nowhere, and ends with the output y and the new state at the
  last boundary's contents.
-/
import proofs.«168947_j73134703116522_2_alg».proof.Proof.Gen.KernelIdeal.Frame

set_option maxRecDepth 16384

noncomputable section

namespace Cert.Ssm.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the output buffer and the
    new-state buffer at the contents of the last segment boundary and the argument arrays as launched. -/
theorem run_results : θ_run defs (onTc (τ := τ) (main (F := F))) ⟨m, fun _ => 0, ρ⟩ (fun r => ∀ c : Dev nD,
      r.2.mem ((c.tc : Thread nD τ).loc main_v30_0) = W5 m ρ c (Proc.devRef .tc main_v30_0)
      ∧ r.2.mem ((c.tc : Thread nD τ).loc main_v31) = W5 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30_0 (by decide)),
       h c _ (mem_uc main_v31 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.Ssm.Run

end
-- ==== Proof.LibDiagonal.lean ====
/-
  The identity matrix as array programs build it, read at an entry.

  Both a kernel and a host program make the `n × n` identity by comparing each entry's row number with its column number
  (two iotas, one along each axis, the row one with a zero offset added) and converting the resulting bit to a float: the
  kernel widens the bit to a 32-bit integer and converts that as a signed number, the host converts the bit as an unsigned
  one.  Row and column numbers below `2^32` are distinct as 32-bit words exactly when they are distinct numbers, so the bit
  is `1` on the diagonal and `0` off it, and both conversions give `1` and `0`: entry `(p, q)` is `if p = q then 1 else 0`.
-/
import Idealize.ShloMosaic.PureOps.Ideal
import Idealize.ShloMosaic.Lib.ValueIdx
import Idealize.ShloMosaic.Lib.Pipeline.Value
import Idealize.ShloMosaic.Lib.IdealHost

noncomputable section

namespace Cert.Lib

open Idealize.ShloMosaic Idealize.ShloMosaic.ValueIdx

/-- Numbers below `2^32` are equal as 32-bit words exactly when they are equal. -/
theorem ofNat32_eq_iff {p q : Nat} (hp : p < 2 ^ 32) (hq : q < 2 ^ 32) :
    BitVec.ofNat 32 p = BitVec.ofNat 32 q ↔ p = q := by
  constructor
  · intro h
    have h' := congrArg BitVec.toNat h
    rw [BitVec.toNat_ofNat, BitVec.toNat_ofNat, Nat.mod_eq_of_lt hp, Nat.mod_eq_of_lt hq] at h'
    exact h'
  · rintro rfl; rfl

/-- The comparison bit of "row number (plus a zero offset) equals column number". -/
theorem diag_bit {n : Nat} (hn : n ≤ 2 ^ 32) (p q : Fin n) :
    IntOp.cmpi .eq (IntOp.addi (BitVec.ofNat 32 p.val) 0#32) (BitVec.ofNat 32 q.val) = if p = q then 1#1 else 0#1 := by
  have hp : p.val < 2 ^ 32 := lt_of_lt_of_le p.isLt hn
  have hq : q.val < 2 ^ 32 := lt_of_lt_of_le q.isLt hn
  unfold IntOp.cmpi IntOp.addi
  by_cases h : p = q
  · subst h; simp
  · have hne : ¬ (BitVec.ofNat 32 p.val = BitVec.ofNat 32 q.val) := fun e => h (Fin.ext ((ofNat32_eq_iff hp hq).mp e))
    have hb : (BitVec.ofNat 32 p.val == BitVec.ofNat 32 q.val) = false := beq_eq_false_iff_ne.mpr hne
    simp [h, hb]

/-- The host's spelling: the comparison bit converted as an unsigned number. -/
theorem host_diag_apply {n : Nat} (hn : n ≤ 2 ^ 32) (h0 : (⟨0, ![]⟩ : Shape).BroadcastsInDim ⟨2, ![n, n]⟩ ![]) (p q : Fin n) :
    uitofp (F := Ideal) .f32 (cmpi .eq (addi (iotaInDim ⟨2, ![n, n]⟩ 32 0)
        (broadcastInDim ⟨2, ![n, n]⟩ ![] h0 (constantI ⟨0, ![]⟩ 32 0#32))) (iotaInDim ⟨2, ![n, n]⟩ 32 1)) (ix2 p q)
      = if p = q then 1 else 0 := by
  show (((IntOp.cmpi .eq (IntOp.addi (BitVec.ofNat 32 p.val)
      (broadcastInDim ⟨2, ![n, n]⟩ ![] h0 (constantI ⟨0, ![]⟩ 32 0#32) (ix2 p q))) (BitVec.ofNat 32 q.val)).toNat : ℝ) : EReal) = _
  rw [broadcastInDim_apply ![] h0 _ (ix2 p q) ix0 (fun a => a.elim0)]
  show (((IntOp.cmpi .eq (IntOp.addi (BitVec.ofNat 32 p.val) 0#32) (BitVec.ofNat 32 q.val)).toNat : ℝ) : EReal) = _
  rw [diag_bit hn p q]
  by_cases h : p = q <;> simp [h]

/-- The kernel's spelling: the comparison bit widened to 32 bits and converted as a signed number. -/
theorem kernel_diag_apply {n : Nat} (hn : n ≤ 2 ^ 32) (κ : Kind) (h0 : (⟨2, ![n, n]⟩ : Shape).Iotas κ 32 [0])
    (h1 : (⟨2, ![n, n]⟩ : Shape).Iotas κ 32 [1]) (hlt : 1 < 32) (p q : Fin n) :
    sitofp (F := Ideal) .f32 (extui 32 (cmpi .eq (addi (iota κ ⟨2, ![n, n]⟩ 32 [0] h0) (broadcast ⟨2, ![n, n]⟩ (0#32 : BitVec 32)))
        (iota κ ⟨2, ![n, n]⟩ 32 [1] h1)) hlt) (ix2 p q)
      = if p = q then 1 else 0 := by
  show ((((IntOp.cmpi .eq (IntOp.addi (iota κ ⟨2, ![n, n]⟩ 32 [0] h0 (ix2 p q)) 0#32)
      (iota κ ⟨2, ![n, n]⟩ 32 [1] h1 (ix2 p q))).setWidth 32).toInt : ℝ) : EReal) = _
  rw [iota_single_apply κ _ 32 0 h0, iota_single_apply κ _ 32 1 h1]
  show ((((IntOp.cmpi .eq (IntOp.addi (BitVec.ofNat 32 p.val) 0#32) (BitVec.ofNat 32 q.val)).setWidth 32).toInt : ℝ) : EReal) = _
  rw [diag_bit hn p q]
  by_cases h : p = q <;> simp [h]

end Cert.Lib

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.HostReads.lean ====
/-
  The host operations of the program, read at an index.

  Between its two kernels the program builds three 0/1 matrices out of identity matrices (an identity broadcast
  along a new axis and flattened, so that entry (k, j) asks whether column j lies in group k = j / 16 or has
  remainder s = j % 16), flattens two arrays to matrices, and afterwards unflattens the result.  Each lemma here
  reads one buffer after a stretch of host operations, started from arbitrary contents W, at an index given by
  its coordinates: a reshape keeps the row-major position, a broadcast forgets the new axis, a transpose swaps the
  two coordinates, and a format change is the identity on extended reals.
-/
import proofs.«168947_j73134703116522_2_alg».proof.Proof.Gen.KernelIdeal.Launch
import proofs.«168947_j73134703116522_2_alg».proof.Proof.LibDiagonal
import proofs.«168947_j73134703116522_2_alg».proof.Proof.LibAfterAppend
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.Ssm.Host

open Cert.KernelIdeal Cert.KernelIdeal.Gen Idealize.ShloMosaic Idealize.ShloMosaic.ValueIdx

/-- Closes `after ops W b = W b` for a buffer `b` that no operation of the literal list `ops` writes: each operation
    writes one buffer, and that buffer is another one. -/
local macro "no_operation_writes_it" : tactic =>
  `(tactic| (
    refine StableHlo.after_of_forall_not_mem _ _ (List.forall_iff_forall_mem.mp ?_)
    simp only [hostOps0, hostOps1, hostOps2, List.Forall, StableHlo.nullary_writes, StableHlo.unary_writes,
      StableHlo.binary_writes, StableHlo.reshape_writes, Finset.mem_singleton]
    repeat' apply And.intro
    all_goals exact StableHlo.devRef_ne_of_ne (by decide)))

/-! ## The two identity matrices spread over 2048 columns -/

/-- The 128 × 128 identity as the host builds it. -/
abbrev eye128 : S128x128.Idx → EReal :=
  uitofp (F := Ideal) .f32 (cmpi .eq (addi (iotaInDim S128x128 32 0)
    (broadcastInDim S128x128 ![] bcast_S_S128x128 (constantI S_ 32 0#32))) (iotaInDim S128x128 32 1))

/-- The 16 × 16 identity as the host builds it. -/
abbrev eye16 : S16x16.Idx → EReal :=
  uitofp (F := Ideal) .f32 (cmpi .eq (addi (iotaInDim S16x16 32 0)
    (broadcastInDim S16x16 ![] bcast_S_S16x16 (constantI S_ 32 0#32))) (iotaInDim S16x16 32 1))

/-- The group matrix: the identity on 128 groups, each entry repeated along a new last axis of 16 and the last two
    axes flattened to 2048 columns. -/
abbrev groupTerm : S128x2048.Idx → EReal :=
  truncf (F := Ideal) .bf16 (shapeCast S128x2048 (broadcastInDim S128x128x16 ![0, 1] bcast_S128x128_S128x128x16_0_1 eye128)
    shapeCasts_S128x128x16_S128x2048) bitsLt_bf16_f32

/-- The remainder matrix: the identity on 16 states, repeated over 128 groups in the middle and flattened. -/
abbrev stateTerm : S16x2048.Idx → EReal :=
  truncf (F := Ideal) .bf16 (shapeCast S16x2048 (broadcastInDim S1x16x128x16 ![0, 1, 2, 3] bcast_S1x16x1x16_S1x16x128x16_0_1_2_3
    (shapeCast S1x16x1x16 eye16 shapeCasts_S16x16_S1x16x1x16)) shapeCasts_S1x16x128x16_S16x2048) bitsLt_bf16_f32

/-- Entry (k, j) of the group matrix is 1 exactly when column j lies in group k. -/
theorem groupTerm_apply (k : Fin 128) (j : Fin 2048) :
    groupTerm (ix2 k j) = if j.val / 16 = k.val then 1 else 0 := by
  have hq : j.val / 16 < 128 := by have := j.isLt; omega
  have hr : j.val % 16 < 16 := Nat.mod_lt _ (by decide)
  show shapeCast S128x2048 (broadcastInDim S128x128x16 ![0, 1] bcast_S128x128_S128x128x16_0_1 eye128)
    shapeCasts_S128x128x16_S128x2048 (ix2 k j) = _
  rw [shapeCast_apply _ shapeCasts_S128x128x16_S128x2048 (ix2 k j) (ix3 k (⟨j.val / 16, hq⟩ : Fin 128) (⟨j.val % 16, hr⟩ : Fin 16)) (by
    rw [Shape.rowMajor_val_three, Shape.rowMajor_val_two]
    show (k.val * 128 + j.val / 16) * 16 + j.val % 16 = k.val * 2048 + j.val
    omega)]
  rw [broadcastInDim_apply ![0, 1] bcast_S128x128_S128x128x16_0_1 eye128 _ (ix2 k (⟨j.val / 16, hq⟩ : Fin 128)) (fun a => by
    match a with
    | ⟨0, _⟩ => rfl
    | ⟨1, _⟩ => rfl)]
  rw [eye128, Cert.Lib.host_diag_apply (n := 128) (by norm_num) bcast_S_S128x128 k ⟨j.val / 16, hq⟩]
  by_cases h : j.val / 16 = k.val
  · rw [if_pos h, if_pos (Fin.ext h.symm)]
  · rw [if_neg h, if_neg (fun e => h (congrArg Fin.val e).symm)]

/-- Entry (s, j) of the remainder matrix is 1 exactly when column j has remainder s. -/
theorem stateTerm_apply (s : Fin 16) (j : Fin 2048) :
    stateTerm (ix2 s j) = if j.val % 16 = s.val then 1 else 0 := by
  have hq : j.val / 16 < 128 := by have := j.isLt; omega
  have hr : j.val % 16 < 16 := Nat.mod_lt _ (by decide)
  show shapeCast S16x2048 (broadcastInDim S1x16x128x16 ![0, 1, 2, 3] bcast_S1x16x1x16_S1x16x128x16_0_1_2_3
    (shapeCast S1x16x1x16 eye16 shapeCasts_S16x16_S1x16x1x16)) shapeCasts_S1x16x128x16_S16x2048 (ix2 s j) = _
  rw [shapeCast_apply _ shapeCasts_S1x16x128x16_S16x2048 (ix2 s j)
    (ix4 (0 : Fin 1) s (⟨j.val / 16, hq⟩ : Fin 128) (⟨j.val % 16, hr⟩ : Fin 16)) (by
    rw [Shape.rowMajor_val_four, Shape.rowMajor_val_two]
    show ((0 * 16 + s.val) * 128 + j.val / 16) * 16 + j.val % 16 = s.val * 2048 + j.val
    omega)]
  rw [broadcastInDim_apply ![0, 1, 2, 3] bcast_S1x16x1x16_S1x16x128x16_0_1_2_3 _ _
    (ix4 (0 : Fin 1) s (0 : Fin 1) (⟨j.val % 16, hr⟩ : Fin 16)) (fun a => by
    match a with
    | ⟨0, _⟩ => rfl
    | ⟨1, _⟩ => rfl
    | ⟨2, _⟩ => rfl
    | ⟨3, _⟩ => rfl)]
  rw [shapeCast_apply eye16 shapeCasts_S16x16_S1x16x1x16 _ (ix2 s (⟨j.val % 16, hr⟩ : Fin 16)) (by
    rw [Shape.rowMajor_val_four, Shape.rowMajor_val_two]
    show s.val * 16 + j.val % 16 = ((0 * 16 + s.val) * 1 + 0) * 16 + j.val % 16
    omega)]
  rw [eye16, Cert.Lib.host_diag_apply (n := 16) (by norm_num) bcast_S_S16x16 s ⟨j.val % 16, hr⟩]
  by_cases h : j.val % 16 = s.val
  · rw [if_pos h, if_pos (Fin.ext h.symm)]
  · rw [if_neg h, if_neg (fun e => h (congrArg Fin.val e).symm)]

/-! ## Stretch 1: the three 0/1 matrices and the two flattenings, from arbitrary contents -/

/-- The group matrix's buffer holds the group matrix. -/
theorem after1_v18 (W : Valuation τ sig (Elt Ideal)) :
    (StableHlo.after (hostOps1 (F := Ideal)) W (Proc.devRef .tc main_v18) : S128x2048.Idx → EReal) = groupTerm := by
  after_results; rfl

/-- Entry (k, j) of the group matrix's buffer. -/
theorem after1_v18_apply (W : Valuation τ sig (Elt Ideal)) (k : Fin 128) (j : Fin 2048) :
    (StableHlo.after (hostOps1 (F := Ideal)) W (Proc.devRef .tc main_v18) : S128x2048.Idx → EReal) (ix2 k j)
      = (if j.val / 16 = k.val then 1 else 0 : EReal) := by
  rw [after1_v18, groupTerm_apply]

/-- The remainder matrix's buffer holds the remainder matrix. -/
theorem after1_v28 (W : Valuation τ sig (Elt Ideal)) :
    (StableHlo.after (hostOps1 (F := Ideal)) W (Proc.devRef .tc main_v28) : S16x2048.Idx → EReal) = stateTerm := by
  after_results; rfl

/-- Entry (s, j) of the remainder matrix's buffer. -/
theorem after1_v28_apply (W : Valuation τ sig (Elt Ideal)) (s : Fin 16) (j : Fin 2048) :
    (StableHlo.after (hostOps1 (F := Ideal)) W (Proc.devRef .tc main_v28) : S16x2048.Idx → EReal) (ix2 s j)
      = (if j.val % 16 = s.val then 1 else 0 : EReal) := by
  rw [after1_v28, stateTerm_apply]

/-- The transposed group matrix's buffer holds the transpose of the group matrix. -/
theorem after1_v29 (W : Valuation τ sig (Elt Ideal)) :
    (StableHlo.after (hostOps1 (F := Ideal)) W (Proc.devRef .tc main_v29) : S2048x128.Idx → EReal)
      = transpose S2048x128 [1, 0] groupTerm transposes_S128x2048_S2048x128_1_0 := by
  after_results; rfl

/-- Entry (j, k) of the transposed group matrix's buffer. -/
theorem after1_v29_apply (W : Valuation τ sig (Elt Ideal)) (j : Fin 2048) (k : Fin 128) :
    (StableHlo.after (hostOps1 (F := Ideal)) W (Proc.devRef .tc main_v29) : S2048x128.Idx → EReal) (ix2 j k)
      = (if j.val / 16 = k.val then 1 else 0 : EReal) := by
  rw [after1_v29, transpose_ix2_apply groupTerm transposes_S128x2048_S2048x128_1_0 j k, groupTerm_apply]

/-- The flattened rank-3 argument: entry (p, j) is the argument at (p, j / 16, j % 16). -/
theorem after1_v8_apply (W : Valuation τ sig (Elt Ideal)) (p : Fin 2048) (j : Fin 32768)
    (hq : j.val / 16 < 2048) (hr : j.val % 16 < 16) :
    (StableHlo.after (hostOps1 (F := Ideal)) W (Proc.devRef .tc main_v8) : S2048x32768.Idx → EReal) (ix2 p j)
      = (W (Proc.devRef .tc main_arg1) : S2048x2048x16.Idx → EReal)
          (ix3 p (⟨j.val / 16, hq⟩ : Fin 2048) (⟨j.val % 16, hr⟩ : Fin 16)) := by
  have e : (StableHlo.after (hostOps1 (F := Ideal)) W (Proc.devRef .tc main_v8) : S2048x32768.Idx → EReal)
      = shapeCast S2048x32768 (W (Proc.devRef .tc main_arg1) : S2048x2048x16.Idx → EReal)
          shapeCasts_S2048x2048x16_S2048x32768 := by
    after_results; rfl
  rw [e]
  exact shapeCast_apply _ shapeCasts_S2048x2048x16_S2048x32768 (ix2 p j) _ (by
    rw [Shape.rowMajor_val_three, Shape.rowMajor_val_two]
    show (p.val * 2048 + j.val / 16) * 16 + j.val % 16 = p.val * 32768 + j.val
    omega)

/-- The flattened decay matrix: entry (0, j) is the matrix at (j / 16, j % 16). -/
theorem after1_v9_apply (W : Valuation τ sig (Elt Ideal)) (u : Fin 1) (j : Fin 32768)
    (hq : j.val / 16 < 2048) (hr : j.val % 16 < 16) :
    (StableHlo.after (hostOps1 (F := Ideal)) W (Proc.devRef .tc main_v9) : S1x32768.Idx → EReal) (ix2 u j)
      = (W (Proc.devRef .tc main_v1) : S2048x16.Idx → EReal)
          (ix2 (⟨j.val / 16, hq⟩ : Fin 2048) (⟨j.val % 16, hr⟩ : Fin 16)) := by
  have e : (StableHlo.after (hostOps1 (F := Ideal)) W (Proc.devRef .tc main_v9) : S1x32768.Idx → EReal)
      = shapeCast S1x32768 (W (Proc.devRef .tc main_v1) : S2048x16.Idx → EReal)
          shapeCasts_S2048x16_S1x32768 := by
    after_results; rfl
  rw [e]
  exact shapeCast_apply _ shapeCasts_S2048x16_S1x32768 (ix2 u j) _ (by
    have hu : u.val = 0 := by omega
    rw [Shape.rowMajor_val_two, Shape.rowMajor_val_two]
    show (j.val / 16) * 16 + j.val % 16 = u.val * 32768 + j.val
    omega)

/-! ### Buffers the stretch leaves alone -/

theorem after1_arg0 (W : Valuation τ sig (Elt Ideal)) :
    StableHlo.after (hostOps1 (F := Ideal)) W (Proc.devRef .tc main_arg0) = W (Proc.devRef .tc main_arg0) := by
  no_operation_writes_it

theorem after1_v7_0 (W : Valuation τ sig (Elt Ideal)) :
    StableHlo.after (hostOps1 (F := Ideal)) W (Proc.devRef .tc main_v7_0) = W (Proc.devRef .tc main_v7_0) := by
  no_operation_writes_it

theorem after1_v7_1 (W : Valuation τ sig (Elt Ideal)) :
    StableHlo.after (hostOps1 (F := Ideal)) W (Proc.devRef .tc main_v7_1) = W (Proc.devRef .tc main_v7_1) := by
  no_operation_writes_it

theorem after1_v7_2 (W : Valuation τ sig (Elt Ideal)) :
    StableHlo.after (hostOps1 (F := Ideal)) W (Proc.devRef .tc main_v7_2) = W (Proc.devRef .tc main_v7_2) := by
  no_operation_writes_it

theorem after1_v3 (W : Valuation τ sig (Elt Ideal)) :
    StableHlo.after (hostOps1 (F := Ideal)) W (Proc.devRef .tc main_v3) = W (Proc.devRef .tc main_v3) := by
  no_operation_writes_it

/-! ## Stretch 2: the result unflattened -/

/-- Entry (p, d, s) of the unflattened result is the flat result at (p, 16 d + s). -/
theorem after2_v31_apply (W : Valuation τ sig (Elt Ideal)) (p d : Fin 2048) (s : Fin 16)
    (h : 16 * d.val + s.val < 32768) :
    (StableHlo.after (hostOps2 (F := Ideal)) W (Proc.devRef .tc main_v31) : S2048x2048x16.Idx → EReal) (ix3 p d s)
      = (W (Proc.devRef .tc main_v30_1) : S2048x32768.Idx → EReal) (ix2 p (⟨16 * d.val + s.val, h⟩ : Fin 32768)) := by
  have e : (StableHlo.after (hostOps2 (F := Ideal)) W (Proc.devRef .tc main_v31) : S2048x2048x16.Idx → EReal)
      = shapeCast S2048x2048x16 (W (Proc.devRef .tc main_v30_1) : S2048x32768.Idx → EReal)
          shapeCasts_S2048x32768_S2048x2048x16 := by
    after_results; rfl
  rw [e]
  exact shapeCast_apply _ shapeCasts_S2048x32768_S2048x2048x16 (ix3 p d s) _ (by
    rw [Shape.rowMajor_val_three, Shape.rowMajor_val_two]
    show p.val * 32768 + (16 * d.val + s.val) = (p.val * 2048 + d.val) * 16 + s.val
    omega)

theorem after2_v30_0 (W : Valuation τ sig (Elt Ideal)) :
    StableHlo.after (hostOps2 (F := Ideal)) W (Proc.devRef .tc main_v30_0) = W (Proc.devRef .tc main_v30_0) := by
  no_operation_writes_it

/-! ## Stretch 0: the decay rates, two row vectors, three format changes -/

/-- The decay matrix is minus the exponential of its argument, entry by entry. -/
theorem after0_v1 (W : Valuation τ sig (Elt Ideal)) :
    (StableHlo.after (hostOps0 (F := Ideal)) W (Proc.devRef .tc main_v1) : S2048x16.Idx → EReal)
      = fun i => -(Ideal.exp ((W (Proc.devRef .tc main_arg2) : S2048x16.Idx → EReal) i)) := by
  after_results; rfl

/-- A vector laid out as one row: entry (0, n) is the vector's entry n. -/
theorem after0_v2_apply (W : Valuation τ sig (Elt Ideal)) (u : Fin 1) (n : Fin 2048) :
    (StableHlo.after (hostOps0 (F := Ideal)) W (Proc.devRef .tc main_v2) : S1x2048.Idx → EReal) (ix2 u n)
      = (W (Proc.devRef .tc main_arg6) : S2048.Idx → EReal) (ix1 n) := by
  have e : (StableHlo.after (hostOps0 (F := Ideal)) W (Proc.devRef .tc main_v2) : S1x2048.Idx → EReal)
      = shapeCast S1x2048 (W (Proc.devRef .tc main_arg6) : S2048.Idx → EReal) shapeCasts_S2048_S1x2048 := by
    after_results; rfl
  rw [e]
  exact shapeCast_a_1a_apply _ shapeCasts_S2048_S1x2048 u n

theorem after0_v3_apply (W : Valuation τ sig (Elt Ideal)) (u : Fin 1) (n : Fin 2048) :
    (StableHlo.after (hostOps0 (F := Ideal)) W (Proc.devRef .tc main_v3) : S1x2048.Idx → EReal) (ix2 u n)
      = (W (Proc.devRef .tc main_arg7) : S2048.Idx → EReal) (ix1 n) := by
  have e : (StableHlo.after (hostOps0 (F := Ideal)) W (Proc.devRef .tc main_v3) : S1x2048.Idx → EReal)
      = shapeCast S1x2048 (W (Proc.devRef .tc main_arg7) : S2048.Idx → EReal) shapeCasts_S2048_S1x2048 := by
    after_results; rfl
  rw [e]
  exact shapeCast_a_1a_apply _ shapeCasts_S2048_S1x2048 u n

/-- A change of float format is the identity on extended reals. -/
theorem after0_v4 (W : Valuation τ sig (Elt Ideal)) :
    (StableHlo.after (hostOps0 (F := Ideal)) W (Proc.devRef .tc main_v4) : S2048x2048.Idx → EReal)
      = (W (Proc.devRef .tc main_arg5) : S2048x2048.Idx → EReal) := by
  after_results; rfl

theorem after0_v5 (W : Valuation τ sig (Elt Ideal)) :
    (StableHlo.after (hostOps0 (F := Ideal)) W (Proc.devRef .tc main_v5) : S16x2048.Idx → EReal)
      = (W (Proc.devRef .tc main_arg3) : S16x2048.Idx → EReal) := by
  after_results; rfl

theorem after0_v6 (W : Valuation τ sig (Elt Ideal)) :
    (StableHlo.after (hostOps0 (F := Ideal)) W (Proc.devRef .tc main_v6) : S16x2048.Idx → EReal)
      = (W (Proc.devRef .tc main_arg4) : S16x2048.Idx → EReal) := by
  after_results; rfl

theorem after0_arg0 (W : Valuation τ sig (Elt Ideal)) :
    StableHlo.after (hostOps0 (F := Ideal)) W (Proc.devRef .tc main_arg0) = W (Proc.devRef .tc main_arg0) := by
  no_operation_writes_it

theorem after0_arg1 (W : Valuation τ sig (Elt Ideal)) :
    StableHlo.after (hostOps0 (F := Ideal)) W (Proc.devRef .tc main_arg1) = W (Proc.devRef .tc main_arg1) := by
  no_operation_writes_it

end Cert.Ssm.Host

end
-- ==== Proof.Spec.lean ====
/-
  One step of a selective state-space layer, as functions of the argument arrays, entry by entry, over the
  extended reals.

  For a batch row p, a channel d and a state coordinate s:
    Δ[p, d]        = softplus (Σₖ x[p, k] · W_Δ[d, k] + b_Δ[d])
    B[p, s]        = Σₖ x[p, k] · W_B[s, k]          C[p, s] = Σₖ x[p, k] · W_C[s, k]
    state'[p,d,s]  = exp (Δ[p, d] · (−exp A_log[d, s])) · state[p, d, s] + (Δ[p, d] · B[p, s]) · x[p, d]
    y[p, d]        = Σₛ state'[p, d, s] · C[p, s] + D[d] · x[p, d]
  softplus z is max z 0 + log (1 + exp (−|z|)), with |z| = max z (−z).
-/
import Idealize.ShloMosaic.PureOps.Ideal
import Idealize.ShloMosaic.Lib.ValueIdx

noncomputable section

namespace Cert.Ssm

open Idealize.ShloMosaic Idealize.ShloMosaic.ValueIdx

/-- The shapes of the arguments and results. -/
abbrev SX : Shape := ⟨2, ![2048, 2048]⟩
abbrev SP : Shape := ⟨3, ![2048, 2048, 16]⟩
abbrev SA : Shape := ⟨2, ![2048, 16]⟩
abbrev SW : Shape := ⟨2, ![16, 2048]⟩
abbrev SV : Shape := ⟨1, ![2048]⟩

/-- softplus z = max z 0 + log (1 + exp (−|z|)). -/
def softplus (z : EReal) : EReal := max z 0 + Ideal.log1p (Ideal.exp (-(max z (-z))))

/-- The dot product of row p of x with row n of w: Σₖ x[p, k] · w[n, k]. -/
def rowDot {M N K : Nat} (x : (⟨2, ![M, K]⟩ : Shape).Idx → EReal) (w : (⟨2, ![N, K]⟩ : Shape).Idx → EReal)
    (p : Fin M) (n : Fin N) : EReal :=
  ∑ k : Fin K, x (ix2 p k) * w (ix2 n k)

/-- The step size Δ[p, d] = softplus (Σₖ x[p, k] · W_Δ[d, k] + b_Δ[d]). -/
def delta (x wd : SX.Idx → EReal) (bd : SV.Idx → EReal) (p d : Fin 2048) : EReal :=
  softplus (rowDot x wd p d + bd (ix1 d))

/-- The new state at (p, d, s). -/
def stateNew (x : SX.Idx → EReal) (prev : SP.Idx → EReal) (alog : SA.Idx → EReal) (wb : SW.Idx → EReal)
    (wd : SX.Idx → EReal) (bd : SV.Idx → EReal) (p d : Fin 2048) (s : Fin 16) : EReal :=
  Ideal.exp (delta x wd bd p d * -(Ideal.exp (alog (ix2 d s)))) * prev (ix3 p d s)
    + (delta x wd bd p d * rowDot x wb p s) * x (ix2 p d)

/-- The output at (p, d). -/
def yNew (x : SX.Idx → EReal) (prev : SP.Idx → EReal) (alog : SA.Idx → EReal) (wb wc : SW.Idx → EReal)
    (wd : SX.Idx → EReal) (bd dp : SV.Idx → EReal) (p d : Fin 2048) : EReal :=
  (∑ s : Fin 16, stateNew x prev alog wb wd bd p d s * rowDot x wc p s) + dp (ix1 d) * x (ix2 p d)

/-- The new state as an array. -/
def stateArr (x : SX.Idx → EReal) (prev : SP.Idx → EReal) (alog : SA.Idx → EReal) (wb : SW.Idx → EReal)
    (wd : SX.Idx → EReal) (bd : SV.Idx → EReal) : SP.Idx → EReal :=
  fun i => stateNew x prev alog wb wd bd (i 0) (i 1) (i 2)

/-- The output as an array. -/
def yArr (x : SX.Idx → EReal) (prev : SP.Idx → EReal) (alog : SA.Idx → EReal) (wb wc : SW.Idx → EReal)
    (wd : SX.Idx → EReal) (bd dp : SV.Idx → EReal) : SX.Idx → EReal :=
  fun i => yNew x prev alog wb wc wd bd dp (i 0) (i 1)

theorem stateArr_ix3 (x : SX.Idx → EReal) (prev : SP.Idx → EReal) (alog : SA.Idx → EReal) (wb : SW.Idx → EReal)
    (wd : SX.Idx → EReal) (bd : SV.Idx → EReal) (p d : Fin 2048) (s : Fin 16) :
    stateArr x prev alog wb wd bd (ix3 p d s) = stateNew x prev alog wb wd bd p d s := rfl

theorem yArr_ix2 (x : SX.Idx → EReal) (prev : SP.Idx → EReal) (alog : SA.Idx → EReal) (wb wc : SW.Idx → EReal)
    (wd : SX.Idx → EReal) (bd dp : SV.Idx → EReal) (p d : Fin 2048) :
    yArr x prev alog wb wc wd bd dp (ix2 p d) = yNew x prev alog wb wc wd bd dp p d := rfl

end Cert.Ssm

end
-- ==== Proof.LibRowsDot.lean ====
/-
  A matrix product with the right operand given by rows.

  For a left operand of M rows by K columns and a right operand of N rows by K columns, contracted along the
  column axis of both (no batch axis), the product has entry (p, q) equal to the dot product of row p of the left
  with row q of the right:  Σ_k l[p, k] · r[q, k].  Over the extended reals the matrix unit's product into a zero
  accumulator is exactly this finite sum: no rounding, and no order of accumulation to speak of.
-/
import Idealize.ShloMosaic.Lib.ValueIdx
import Idealize.ShloMosaic.PureOps.Ideal.Laws

noncomputable section

namespace Cert.Lib

open Idealize.ShloMosaic Idealize.ShloMosaic.ValueIdx

variable {M K N : Nat}

/-- The left operand's row coordinate is the result's row. -/
theorem rowsDot_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem rowsDot_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right operand's row coordinate is the result's column. -/
theorem rowsDot_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rowsDot_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction sum of a rows-by-rows product, re-indexed by the column position k < K. -/
theorem rowsDot_contr_sum (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact rowsDot_lhs_row _ _
      | ⟨1, _⟩ => exact (rowsDot_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rowsDot_rhs_row _ _
      | ⟨1, _⟩ => exact (rowsDot_rhs_col _ _).trans hk)
  rw [el, er]

/-- The matrix unit's rows-by-rows product into the zero accumulator, read at (p, q): Σ_k l[p, k] · r[q, k]. -/
theorem matmul_rowsDot_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply]
  exact rowsDot_contr_sum l r p q

/-- The host's dot_general with the same dimension numbers, read at (p, q): the same sum. -/
theorem dotGeneral_rowsDot_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (DotDims.transposedRhs M K N) prec sched l r (ix2 p q) = ∑ k : Fin K, l (ix2 p k) * r (ix2 q k) := by
  rw [Ideal.dotGeneral_apply]
  exact rowsDot_contr_sum l r p q

end Cert.Lib

end
-- ==== Proof.Body0.lean ====
/-
  The projection kernel's three stored values, entry by entry, over the extended reals.

  On a block of 256 rows of x the body stores softplus (x · W_Δᵀ + b_Δ), x · W_Bᵀ and x · W_Cᵀ. A change of float
  format is the identity here, and a matrix product into a zero accumulator is the plain finite sum, so the entry
  (p, n) of each stored value is a row-by-row dot product of x with the weight's row n — for the first, plus the
  bias and through softplus. The kernel guards softplus with a comparison of a value with itself for "not equal",
  which never holds on a linear order, so the guarded branch is never taken.
-/
import proofs.«168947_j73134703116522_2_alg».proof.Proof.Gen.KernelIdeal.Skeleton
import proofs.«168947_j73134703116522_2_alg».proof.Proof.Spec
import proofs.«168947_j73134703116522_2_alg».proof.Proof.LibRowsDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Ssm.Body

open Cert.KernelIdeal Cert.KernelIdeal.Gen Idealize.ShloMosaic Idealize.ShloMosaic.ValueIdx

/-- softplus with its never-taken guard: for any z, and c₀ = 0,
    select (z − c₀ ≠ z − c₀) (z + c₀) (max z c₀ + log (1 + exp (c₀ − |z − c₀|))) = softplus z. -/
theorem softplus_guarded (z c0 : EReal) (hc : c0 = 0) :
    Scalar.select (Ideal.cmp .one (z - c0) (z - c0)) (z + c0)
      (max z c0 + Ideal.log1p (Ideal.exp (c0 - max (z - c0) (-(z - c0))))) = softplus z := by
  subst hc
  have h : Ideal.cmp .one (z - 0) (z - 0) = 0#1 := by simp [Ideal.cmp]
  rw [h, select_zero, sub_zero, zero_sub]
  rfl

theorem dotDelta_eq : dot_S256x2048_S2048x2048_S256x2048_1_1_0_0_n_n = DotDims.transposedRhs 256 2048 2048 := rfl
theorem dotSmall_eq : dot_S256x2048_S16x2048_S256x16_1_1_0_0_n_n = DotDims.transposedRhs 256 2048 16 := rfl

/-- The step-size payload at (p, n): softplus (Σₖ x[p, k] · w[n, k] + b[0, n]). -/
theorem pay2_apply (x0 : Vec Ideal S256x2048 .f32) (x1 : Vec Ideal S2048x2048 .bf16) (x4 : Vec Ideal S1x2048 .f32)
    (p : Fin 256) (n : Fin 2048) :
    k0_pay2 x0 x1 x4 (ix2 p n) = softplus (rowDot x0 x1 p n + x4 (ix2 (0 : Fin 1) n)) := by
  unfold k0_pay2 k0_pay1
  refine (softplus_guarded _ _ Ideal.ofBits_zero_f32).trans (congrArg softplus ?_)
  refine congrArg₂ (· + ·) ?_ ?_
  · rw [shapeCast_self, dotDelta_eq]
    exact Cert.Lib.matmul_rowsDot_zero_apply none _ _ p n
  · rw [shapeCast_self]
    exact broadcastTo_1b_ab_apply _ _ p n

/-- The B payload at (p, s): Σₖ x[p, k] · w[s, k]. -/
theorem pay3_apply (x0 : Vec Ideal S256x2048 .f32) (x2 : Vec Ideal S16x2048 .bf16) (p : Fin 256) (s : Fin 16) :
    k0_pay3 x0 x2 (ix2 p s) = rowDot x0 x2 p s := by
  unfold k0_pay3 k0_pay1
  rw [shapeCast_self, dotSmall_eq]
  exact Cert.Lib.matmul_rowsDot_zero_apply none _ _ p s

/-- The C payload at (p, s): Σₖ x[p, k] · w[s, k]. -/
theorem pay4_apply (x0 : Vec Ideal S256x2048 .f32) (x3 : Vec Ideal S16x2048 .bf16) (p : Fin 256) (s : Fin 16) :
    k0_pay4 x0 x3 (ix2 p s) = rowDot x0 x3 p s := by
  unfold k0_pay4 k0_pay1
  rw [shapeCast_self, dotSmall_eq]
  exact Cert.Lib.matmul_rowsDot_zero_apply none _ _ p s

end Cert.Ssm.Body

end
-- ==== Proof.Region0.lean ====
/-
  What the projection region leaves in its three output arrays, as whole-array functions of the arrays it reads.

  The region's grid has 8 points; point t reads rows 256·t … 256·t + 255 of x and the whole of the three weight
  arrays and of the bias row, and writes the same rows of each output. An output entry (r, n) therefore depends only
  on row r of x: the blocks written back are the restrictions of one whole-array function, and the 8 blocks tile each
  output, so after the region each output array IS that function:
    Δ[r, n] = softplus (Σₖ x[r, k] · W_Δ[n, k] + b[0, n]),  B[r, s] = Σₖ x[r, k] · W_B[s, k],  C likewise.
-/
import proofs.«168947_j73134703116522_2_alg».proof.Proof.Gen.KernelIdeal.Frame
import proofs.«168947_j73134703116522_2_alg».proof.Proof.Body0
import Idealize.ShloMosaic.Lib.Pipeline.Value

set_option maxRecDepth 16384

noncomputable section

namespace Cert.Ssm.Proj

open Cert.KernelIdeal Cert.KernelIdeal.Gen Idealize.ShloMosaic Idealize.ShloMosaic.TcCoe Idealize.ShloMosaic.ValueIdx
open Idealize.SL.Sem
open Idealize.ShloMosaic.Pipeline (Dat)
open Cert.Ssm.Body

variable (V : (c : Dev nD) → (b : Ref sig .tc) → Buf (Elt Ideal) ((c : Thread nD τ).loc b))

theorem hz : (![0, 0] : Fin 2 → Nat) = fun _ => 0 := funext fun a => by fin_cases a <;> rfl

/-- The step-size array from x, the weight and the bias row. -/
def deltaOf (x w : S2048x2048.Idx → EReal) (b : S1x2048.Idx → EReal) : S2048x2048.Idx → EReal :=
  fun i => softplus (rowDot x w (i 0) (i 1) + b (ix2 (0 : Fin 1) (i 1)))

/-- A projection of x onto 16 rows of weights. -/
def projOf (x : S2048x2048.Idx → EReal) (w : S16x2048.Idx → EReal) : S2048x16.Idx → EReal :=
  fun i => rowDot x w (i 0) (i 1)

/-- Where each window's block sits at point t: the row windows at block row t, the whole-array windows at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The x block at point t is rows 256·t … of x. -/
theorem xblk_apply (c : Dev nD) (t : Fin cfg0.N) (p : Fin 256) (k : Fin 2048) (r : Fin 2048) (hr : r.val = 256 * t.val + p.val) :
    (iblk0 V c 0 t : Vec Ideal S256x2048 .f32) (ix2 p k) = (V c main_arg0 : S2048x2048.Idx → EReal) (ix2 r k) := by
  obtain ⟨e0, e1, -⟩ := idx_facts t
  unfold iblk0
  rw [View.read_apply]
  refine congrArg (V c main_arg0 : S2048x2048.Idx → EReal) (funext fun a => Fin.ext ?_)
  match a with
  | ⟨0, _⟩ => show win0_0.index t (0 : Fin 2) * 256 + 1 * p.val = r.val; rw [e0, hr]; omega
  | ⟨1, _⟩ => show win0_0.index t (1 : Fin 2) * 2048 + 1 * k.val = k.val; rw [e1]; omega

/-- The W_Δ block is the whole array. -/
theorem wdblk_apply (c : Dev nD) (t : Fin cfg0.N) (n k : Fin 2048) :
    (iblk0 V c 1 t : Vec Ideal S2048x2048 .bf16) (ix2 n k) = (V c main_v4 : S2048x2048.Idx → EReal) (ix2 n k) := by
  obtain ⟨-, -, e0, e1, -⟩ := idx_facts t
  unfold iblk0
  rw [View.read_apply]
  refine congrArg (V c main_v4 : S2048x2048.Idx → EReal) (funext fun a => Fin.ext ?_)
  match a with
  | ⟨0, _⟩ => show win0_1.index t (0 : Fin 2) * 2048 + 1 * n.val = n.val; rw [e0]; omega
  | ⟨1, _⟩ => show win0_1.index t (1 : Fin 2) * 2048 + 1 * k.val = k.val; rw [e1]; omega

/-- The W_B block is the whole array. -/
theorem wbblk_apply (c : Dev nD) (t : Fin cfg0.N) (s : Fin 16) (k : Fin 2048) :
    (iblk0 V c 2 t : Vec Ideal S16x2048 .bf16) (ix2 s k) = (V c main_v5 : S16x2048.Idx → EReal) (ix2 s k) := by
  obtain ⟨-, -, -, -, e0, e1, -⟩ := idx_facts t
  unfold iblk0
  rw [View.read_apply]
  refine congrArg (V c main_v5 : S16x2048.Idx → EReal) (funext fun a => Fin.ext ?_)
  match a with
  | ⟨0, _⟩ => show win0_2.index t (0 : Fin 2) * 16 + 1 * s.val = s.val; rw [e0]; omega
  | ⟨1, _⟩ => show win0_2.index t (1 : Fin 2) * 2048 + 1 * k.val = k.val; rw [e1]; omega

/-- The W_C block is the whole array. -/
theorem wcblk_apply (c : Dev nD) (t : Fin cfg0.N) (s : Fin 16) (k : Fin 2048) :
    (iblk0 V c 3 t : Vec Ideal S16x2048 .bf16) (ix2 s k) = (V c main_v6 : S16x2048.Idx → EReal) (ix2 s k) := by
  obtain ⟨-, -, -, -, -, -, e0, e1, -⟩ := idx_facts t
  unfold iblk0
  rw [View.read_apply]
  refine congrArg (V c main_v6 : S16x2048.Idx → EReal) (funext fun a => Fin.ext ?_)
  match a with
  | ⟨0, _⟩ => show win0_3.index t (0 : Fin 2) * 16 + 1 * s.val = s.val; rw [e0]; omega
  | ⟨1, _⟩ => show win0_3.index t (1 : Fin 2) * 2048 + 1 * k.val = k.val; rw [e1]; omega

/-- The bias block is the whole row. -/
theorem bblk_apply (c : Dev nD) (t : Fin cfg0.N) (n : Fin 2048) :
    (iblk0 V c 4 t : Vec Ideal S1x2048 .f32) (ix2 (0 : Fin 1) n) = (V c main_v2 : S1x2048.Idx → EReal) (ix2 (0 : Fin 1) n) := by
  obtain ⟨-, -, -, -, -, -, -, -, e0, e1, -⟩ := idx_facts t
  unfold iblk0
  rw [View.read_apply]
  refine congrArg (V c main_v2 : S1x2048.Idx → EReal) (funext fun a => Fin.ext ?_)
  match a with
  | ⟨0, _⟩ => show win0_4.index t (0 : Fin 2) * 1 + 1 * 0 = 0; rw [e0]
  | ⟨1, _⟩ => show win0_4.index t (1 : Fin 2) * 2048 + 1 * n.val = n.val; rw [e1]; omega

/-- What point t writes back to the step-size array is block t of deltaOf. -/
theorem flushed5_eq (c : Dev nD) (t : Fin cfg0.N) :
    (dat0 V c).flushed 5 t = ((cfg0.win 5).blk t).view.read (Elt Ideal)
      (deltaOf (V c main_arg0) (V c main_v4) (V c main_v2)) := by
  show (cfg0.win 5).cut (grid0.coords t) ((dat0 V c).after 5 t) = _
  rw [after0_5]
  unfold out0_5
  rw [View.canon_unit_zero hz]
  simp only [View.ld_unit_zero (S := S256x2048) hz, View.ld_unit_zero (S := S2048x2048) hz, View.ld_unit_zero (S := S1x2048) hz]
  funext j
  obtain ⟨p, n, rfl⟩ : ∃ (p : Fin 256) (n : Fin 2048), j = ix2 p n := ⟨j 0, j 1, eq_ix2 j⟩
  refine (pay2_apply _ _ _ p n).trans ?_
  obtain ⟨-, -, -, -, -, -, -, -, -, -, e0, e1, -⟩ := idx_facts t
  have ht : t.val < 8 := by have h := t.isLt; have hN : cfg0.N = 8 := N_0; omega
  have hr : 256 * t.val + p.val < 2048 := by have := p.isLt; omega
  rw [View.read_apply]
  have hemb : ((cfg0.win 5).blk t).view.emb (ix2 p n) = (ix2 (⟨256 * t.val + p.val, hr⟩ : Fin 2048) n : S2048x2048.Idx) := by
    funext a; apply Fin.ext
    match a with
    | ⟨0, _⟩ => show win0_5.index t (0 : Fin 2) * 256 + 1 * p.val = 256 * t.val + p.val; rw [e0]; omega
    | ⟨1, _⟩ => show win0_5.index t (1 : Fin 2) * 2048 + 1 * n.val = n.val; rw [e1]; omega
  rw [hemb]
  show softplus (rowDot _ _ p n + _) = softplus (rowDot _ _ (⟨256 * t.val + p.val, hr⟩ : Fin 2048) n + _)
  refine congrArg softplus (congrArg₂ (· + ·) (Finset.sum_congr rfl fun k _ => ?_) (bblk_apply V c t n))
  rw [xblk_apply V c t p k ⟨256 * t.val + p.val, hr⟩ rfl, wdblk_apply V c t n k]

/-- What point t writes back to a 16-column projection is block t of projOf. -/
theorem flushed6_eq (c : Dev nD) (t : Fin cfg0.N) :
    (dat0 V c).flushed 6 t = ((cfg0.win 6).blk t).view.read (Elt Ideal) (projOf (V c main_arg0) (V c main_v5)) := by
  show (cfg0.win 6).cut (grid0.coords t) ((dat0 V c).after 6 t) = _
  rw [after0_6]
  unfold out0_6
  rw [View.canon_unit_zero hz]
  simp only [View.ld_unit_zero (S := S256x2048) hz, View.ld_unit_zero (S := S16x2048) hz]
  funext j
  obtain ⟨p, s, rfl⟩ : ∃ (p : Fin 256) (s : Fin 16), j = ix2 p s := ⟨j 0, j 1, eq_ix2 j⟩
  refine (pay3_apply _ _ p s).trans ?_
  obtain ⟨-, -, -, -, -, -, -, -, -, -, -, -, e0, e1, -⟩ := idx_facts t
  have ht : t.val < 8 := by have h := t.isLt; have hN : cfg0.N = 8 := N_0; omega
  have hr : 256 * t.val + p.val < 2048 := by have := p.isLt; omega
  rw [View.read_apply]
  have hemb : ((cfg0.win 6).blk t).view.emb (ix2 p s) = (ix2 (⟨256 * t.val + p.val, hr⟩ : Fin 2048) s : S2048x16.Idx) := by
    funext a; apply Fin.ext
    match a with
    | ⟨0, _⟩ => show win0_6.index t (0 : Fin 2) * 256 + 1 * p.val = 256 * t.val + p.val; rw [e0]; omega
    | ⟨1, _⟩ => show win0_6.index t (1 : Fin 2) * 16 + 1 * s.val = s.val; rw [e1]; omega
  rw [hemb]
  show rowDot _ _ p s = rowDot _ _ (⟨256 * t.val + p.val, hr⟩ : Fin 2048) s
  refine Finset.sum_congr rfl fun k _ => ?_
  rw [xblk_apply V c t p k ⟨256 * t.val + p.val, hr⟩ rfl, wbblk_apply V c t s k]

theorem flushed7_eq (c : Dev nD) (t : Fin cfg0.N) :
    (dat0 V c).flushed 7 t = ((cfg0.win 7).blk t).view.read (Elt Ideal) (projOf (V c main_arg0) (V c main_v6)) := by
  show (cfg0.win 7).cut (grid0.coords t) ((dat0 V c).after 7 t) = _
  rw [after0_7]
  unfold out0_7
  rw [View.canon_unit_zero hz]
  simp only [View.ld_unit_zero (S := S256x2048) hz, View.ld_unit_zero (S := S16x2048) hz]
  funext j
  obtain ⟨p, s, rfl⟩ : ∃ (p : Fin 256) (s : Fin 16), j = ix2 p s := ⟨j 0, j 1, eq_ix2 j⟩
  refine (pay4_apply _ _ p s).trans ?_
  obtain ⟨-, -, -, -, -, -, -, -, -, -, -, -, -, -, e0, e1⟩ := idx_facts t
  have ht : t.val < 8 := by have h := t.isLt; have hN : cfg0.N = 8 := N_0; omega
  have hr : 256 * t.val + p.val < 2048 := by have := p.isLt; omega
  rw [View.read_apply]
  have hemb : ((cfg0.win 7).blk t).view.emb (ix2 p s) = (ix2 (⟨256 * t.val + p.val, hr⟩ : Fin 2048) s : S2048x16.Idx) := by
    funext a; apply Fin.ext
    match a with
    | ⟨0, _⟩ => show win0_7.index t (0 : Fin 2) * 256 + 1 * p.val = 256 * t.val + p.val; rw [e0]; omega
    | ⟨1, _⟩ => show win0_7.index t (1 : Fin 2) * 16 + 1 * s.val = s.val; rw [e1]; omega
  rw [hemb]
  show rowDot _ _ p s = rowDot _ _ (⟨256 * t.val + p.val, hr⟩ : Fin 2048) s
  refine Finset.sum_congr rfl fun k _ => ?_
  rw [xblk_apply V c t p k ⟨256 * t.val + p.val, hr⟩ rfl, wcblk_apply V c t s k]

/-- Every block row below 8 is some point's. -/
theorem pt_of_row (q : Fin 8) : ∃ t : Fin cfg0.N, t.val = q.val := ⟨⟨q.val, by rw [show cfg0.N = 8 from N_0]; exact q.isLt⟩, rfl⟩

/-- The 8 row blocks cover the step-size array. -/
theorem cover5 (i : S2048x2048.Idx) : ∃ t : Fin cfg0.N, (cfg0.win 5).flush t = true ∧ i ∈ ((cfg0.win 5).blk t).view.set := by
  have hi0 : (i 0).val < 2048 := (i 0).isLt
  have hi1 : (i 1).val < 2048 := (i 1).isLt
  obtain ⟨t, ht⟩ := pt_of_row ⟨(i 0).val / 256, by omega⟩
  obtain ⟨-, -, -, -, -, -, -, -, -, -, e0, e1, -⟩ := idx_facts t
  refine ⟨t, flush0_5 t, ?_⟩
  show i ∈ ((View.whole main_v7_0).slice (win0_5.rect t)).set
  rw [View.set_slice_whole, Rect.mem_set_unit]
  intro a
  match a with
  | ⟨0, _⟩ => show win0_5.index t (0 : Fin 2) * 256 ≤ (i 0).val ∧ (i 0).val < win0_5.index t (0 : Fin 2) * 256 + 256; rw [e0, ht]; show (i 0).val / 256 * 256 ≤ _ ∧ _ < (i 0).val / 256 * 256 + 256; omega
  | ⟨1, _⟩ => show win0_5.index t (1 : Fin 2) * 2048 ≤ (i 1).val ∧ (i 1).val < win0_5.index t (1 : Fin 2) * 2048 + 2048; rw [e1]; omega

theorem cover6 (i : S2048x16.Idx) : ∃ t : Fin cfg0.N, (cfg0.win 6).flush t = true ∧ i ∈ ((cfg0.win 6).blk t).view.set := by
  have hi0 : (i 0).val < 2048 := (i 0).isLt
  have hi1 : (i 1).val < 16 := (i 1).isLt
  obtain ⟨t, ht⟩ := pt_of_row ⟨(i 0).val / 256, by omega⟩
  obtain ⟨-, -, -, -, -, -, -, -, -, -, -, -, e0, e1, -⟩ := idx_facts t
  refine ⟨t, flush0_6 t, ?_⟩
  show i ∈ ((View.whole main_v7_1).slice (win0_6.rect t)).set
  rw [View.set_slice_whole, Rect.mem_set_unit]
  intro a
  match a with
  | ⟨0, _⟩ => show win0_6.index t (0 : Fin 2) * 256 ≤ (i 0).val ∧ (i 0).val < win0_6.index t (0 : Fin 2) * 256 + 256; rw [e0, ht]; show (i 0).val / 256 * 256 ≤ _ ∧ _ < (i 0).val / 256 * 256 + 256; omega
  | ⟨1, _⟩ => show win0_6.index t (1 : Fin 2) * 16 ≤ (i 1).val ∧ (i 1).val < win0_6.index t (1 : Fin 2) * 16 + 16; rw [e1]; omega

theorem cover7 (i : S2048x16.Idx) : ∃ t : Fin cfg0.N, (cfg0.win 7).flush t = true ∧ i ∈ ((cfg0.win 7).blk t).view.set := by
  have hi0 : (i 0).val < 2048 := (i 0).isLt
  have hi1 : (i 1).val < 16 := (i 1).isLt
  obtain ⟨t, ht⟩ := pt_of_row ⟨(i 0).val / 256, by omega⟩
  obtain ⟨-, -, -, -, -, -, -, -, -, -, -, -, -, -, e0, e1⟩ := idx_facts t
  refine ⟨t, flush0_7 t, ?_⟩
  show i ∈ ((View.whole main_v7_2).slice (win0_7.rect t)).set
  rw [View.set_slice_whole, Rect.mem_set_unit]
  intro a
  match a with
  | ⟨0, _⟩ => show win0_7.index t (0 : Fin 2) * 256 ≤ (i 0).val ∧ (i 0).val < win0_7.index t (0 : Fin 2) * 256 + 256; rw [e0, ht]; show (i 0).val / 256 * 256 ≤ _ ∧ _ < (i 0).val / 256 * 256 + 256; omega
  | ⟨1, _⟩ => show win0_7.index t (1 : Fin 2) * 16 ≤ (i 1).val ∧ (i 1).val < win0_7.index t (1 : Fin 2) * 16 + 16; rw [e1]; omega

/-- After the region the step-size array is deltaOf of the arrays the region read. -/
theorem final5 (c : Dev nD) : (dat0 V c).arrAt 5 cfg0.N = deltaOf (V c main_arg0) (V c main_v4) (V c main_v2) :=
  (dat0 V c).arrAt_eq_of_cover 5 _ (fun t _ => flushed5_eq V c t) (cover5)

theorem final6 (c : Dev nD) : (dat0 V c).arrAt 6 cfg0.N = projOf (V c main_arg0) (V c main_v5) :=
  (dat0 V c).arrAt_eq_of_cover 6 _ (fun t _ => flushed6_eq V c t) (cover6)

theorem final7 (c : Dev nD) : (dat0 V c).arrAt 7 cfg0.N = projOf (V c main_arg0) (V c main_v6) :=
  (dat0 V c).arrAt_eq_of_cover 7 _ (fun t _ => flushed7_eq V c t) (cover7)

end Cert.Ssm.Proj

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.LibHeadSum.lean ====
/-
  Sums per head written as products with a 0/1 grouping matrix.

  A row of `J · B` lanes is `J` heads of `B` consecutive lanes. Let `G[k, h] = 1` when lane `k` lies in head `h`
  (`k / B = h`) and `0` otherwise. Then
  * contracting a row `p` with `G` gives, at head `h`, the sum of that head's lanes: `∑ₖ p k · G[k, h] = ∑_{l < B} p (B·h + l)`;
  * contracting a row `s` of per-head values with `Gᵀ` repeats each value over its head's lanes: `∑ₕ s h · G[k, h] = s (k / B)`.
  Stated on the extended reals, where no distributivity is available and none is needed: only `x · 0 = 0`, `x · 1 = x`
  (true of every extended real, the infinities included) and the commutative monoid of `+` are used — each product is
  the lane's value or zero, and the sum keeps the one block, or the one head, whose indicator is `1`.
-/
import Mathlib.Algebra.BigOperators.Fin
import Mathlib.Data.EReal.Basic
import proofs.«168947_j73134703116522_2_alg».proof.Proof.LibBlockSum

namespace Cert.Lib

/-- A product with an indicator is the value where the indicator holds and zero elsewhere. -/
theorem mul_indicator (x : EReal) (P : Prop) [Decidable P] : x * (if P then (1 : EReal) else 0) = if P then x else 0 := by
  split_ifs
  · exact mul_one x
  · exact mul_zero x

/-- Contracting a row of `J · B` lanes with the grouping matrix gives head `h`'s own sum. -/
theorem sum_mul_block_indicator (J B : ℕ) (hB : 0 < B) (p : ℕ → EReal) (h : ℕ) (hh : h < J) :
    ∑ k : Fin (J * B), p k.val * (if k.val / B = h then (1 : EReal) else 0) = ∑ l : Fin B, p (B * h + l.val) := by
  have hdiv : ∀ (s : ℕ) (l : Fin B), (B * s + l.val) / B = s := fun s l => by
    rw [Nat.mul_add_div hB, Nat.div_eq_of_lt l.isLt, add_zero]
  calc ∑ k : Fin (J * B), p k.val * (if k.val / B = h then (1 : EReal) else 0)
      = ∑ k : Fin (J * B), (fun n : ℕ => if n / B = h then p n else 0) k.val :=
        Finset.sum_congr rfl fun k _ => mul_indicator _ _
    _ = ∑ s ∈ Finset.range J, ∑ l : Fin B, (if (B * s + l.val) / B = h then p (B * s + l.val) else 0) :=
        (sum_blocks J B fun n : ℕ => if n / B = h then p n else 0).symm
    _ = ∑ s ∈ Finset.range J, if s = h then ∑ l : Fin B, p (B * s + l.val) else 0 :=
        Finset.sum_congr rfl fun s _ => by
          simp only [hdiv]
          by_cases hs : s = h
          · simp only [if_pos hs]
          · simp only [if_neg hs, Finset.sum_const_zero]
    _ = ∑ l : Fin B, p (B * h + l.val) := by
        refine (Finset.sum_eq_single_of_mem h (Finset.mem_range.mpr hh) ?_).trans (if_pos rfl)
        intro b _ hb
        exact if_neg hb

/-- Contracting per-head values with the transposed grouping matrix repeats each over its head's lanes. -/
theorem sum_mul_head_indicator (J B : ℕ) (s : ℕ → EReal) (k : ℕ) (hk : k / B < J) :
    ∑ h : Fin J, s h.val * (if k / B = h.val then (1 : EReal) else 0) = s (k / B) := by
  calc ∑ h : Fin J, s h.val * (if k / B = h.val then (1 : EReal) else 0)
      = ∑ h : Fin J, if (⟨k / B, hk⟩ : Fin J) = h then s h.val else 0 :=
        Finset.sum_congr rfl fun h _ => by
          rw [mul_indicator]
          exact if_congr (by rw [Fin.ext_iff]) rfl rfl
    _ = s (k / B) := by
        refine (Finset.sum_eq_single_of_mem (⟨k / B, hk⟩ : Fin J) (Finset.mem_univ _) ?_).trans (if_pos rfl)
        intro b _ hb
        exact if_neg (Ne.symm hb)

end Cert.Lib
-- ==== Proof.Body1.lean ====
/-
  The state-update kernel's two stored values, entry by entry, over the extended reals.

  The body works on a dense layout: lane j of a block of 2048 lanes is channel j / 16 of the block, state coordinate
  j % 16. Per-channel values (x, Δ) and per-coordinate values (B, C) are spread over the lanes by products with 0/1
  matrices — E[k, j] = 1 iff j / 16 = k, T[s, j] = 1 iff j % 16 = s — and the sum over the 16 coordinates of a channel
  is a product with R[j, k] = 1 iff j / 16 = k. A product with a 0/1 matrix is a sum of terms v · 1 and v · 0, and on
  the extended reals v · 1 = v and v · 0 = 0 for every v, the infinities included, and a + 0 = a: so each such product
  picks out, or adds up, exactly the entries it is meant to, with no finiteness needed.
-/
import proofs.«168947_j73134703116522_2_alg».proof.Proof.Gen.KernelIdeal.Skeleton
import proofs.«168947_j73134703116522_2_alg».proof.Proof.Spec
import proofs.«168947_j73134703116522_2_alg».proof.Proof.LibPlainDot
import proofs.«168947_j73134703116522_2_alg».proof.Proof.LibHeadSum
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Ssm.Body

open Cert.KernelIdeal Cert.KernelIdeal.Gen Idealize.ShloMosaic Idealize.ShloMosaic.ValueIdx

/-- A sum of values each times the indicator of one position keeps that position's value. -/
theorem sum_mul_pick {n : ℕ} (v : Fin n → EReal) (g : ℕ) (hg : g < n) :
    ∑ k : Fin n, v k * (if g = k.val then (1 : EReal) else 0) = v ⟨g, hg⟩ := by
  calc ∑ k : Fin n, v k * (if g = k.val then (1 : EReal) else 0)
      = ∑ k : Fin n, if (⟨g, hg⟩ : Fin n) = k then v k else 0 :=
        Finset.sum_congr rfl fun k _ => by
          rw [Cert.Lib.mul_indicator]
          exact if_congr (by rw [Fin.ext_iff]) rfl rfl
    _ = v ⟨g, hg⟩ := by
        refine (Finset.sum_eq_single_of_mem (⟨g, hg⟩ : Fin n) (Finset.mem_univ _) ?_).trans (if_pos rfl)
        intro b _ hb
        exact if_neg (Ne.symm hb)

/-- The matrix that repeats each of 128 channel values over its 16 lanes. -/
def IsExpand (E : S128x2048.Idx → EReal) : Prop :=
  ∀ (k : Fin 128) (j : Fin 2048), E (ix2 k j) = if j.val / 16 = k.val then 1 else 0
/-- The matrix that tiles a vector of 16 coordinate values 128 times. -/
def IsTile (T : S16x2048.Idx → EReal) : Prop :=
  ∀ (s : Fin 16) (j : Fin 2048), T (ix2 s j) = if j.val % 16 = s.val then 1 else 0
/-- The matrix that adds up each channel's 16 lanes. -/
def IsGroup (R : S2048x128.Idx → EReal) : Prop :=
  ∀ (j : Fin 2048) (k : Fin 128), R (ix2 j k) = if j.val / 16 = k.val then 1 else 0

/-- Spreading per-channel values over the lanes: lane j gets its channel's value. -/
theorem spread_channel (v : S256x128.Idx → EReal) (E : S128x2048.Idx → EReal) (hE : IsExpand E) (p : Fin 256) (j : Fin 2048) :
    ∑ k : Fin 128, v (ix2 p k) * E (ix2 k j) = v (ix2 p (⟨j.val / 16, by have := j.isLt; omega⟩ : Fin 128)) := by
  rw [← sum_mul_pick (fun k : Fin 128 => v (ix2 p k)) (j.val / 16) (by have := j.isLt; omega)]
  exact Finset.sum_congr rfl fun k _ => by rw [hE k j]

/-- Spreading per-coordinate values over the lanes: lane j gets its coordinate's value. -/
theorem spread_coord (v : S256x16.Idx → EReal) (T : S16x2048.Idx → EReal) (hT : IsTile T) (p : Fin 256) (j : Fin 2048) :
    ∑ s : Fin 16, v (ix2 p s) * T (ix2 s j) = v (ix2 p (⟨j.val % 16, Nat.mod_lt _ (by norm_num)⟩ : Fin 16)) := by
  rw [← sum_mul_pick (fun s : Fin 16 => v (ix2 p s)) (j.val % 16) (Nat.mod_lt _ (by norm_num))]
  exact Finset.sum_congr rfl fun s _ => by rw [hT s j]

/-- Adding up a channel's 16 lanes. -/
theorem gather_channel (u : S256x2048.Idx → EReal) (R : S2048x128.Idx → EReal) (hR : IsGroup R) (p : Fin 256) (d : Fin 128) :
    ∑ j : Fin 2048, u (ix2 p j) * R (ix2 j d)
      = ∑ s : Fin 16, u (ix2 p (⟨16 * d.val + s.val, by have := d.isLt; have := s.isLt; omega⟩ : Fin 2048)) := by
  have h := Cert.Lib.sum_mul_block_indicator 128 16 (by norm_num)
    (fun n : ℕ => if h : n < 2048 then u (ix2 p (⟨n, h⟩ : Fin 2048)) else 0) d.val d.isLt
  refine Eq.trans (Finset.sum_congr rfl fun j _ => ?_) (h.trans (Finset.sum_congr rfl fun s _ => ?_))
  · rw [hR j d]
    show _ = (if h : j.val < 2048 then u (ix2 p (⟨j.val, h⟩ : Fin 2048)) else 0) * _
    rw [dif_pos j.isLt]
  · have hs : 16 * d.val + s.val < 2048 := by have := d.isLt; have := s.isLt; omega
    show (if h : 16 * d.val + s.val < 2048 then u (ix2 p (⟨16 * d.val + s.val, h⟩ : Fin 2048)) else 0) = _
    rw [dif_pos hs]

theorem dotE_eq : dot_S256x128_S128x2048_S256x2048_1_0_0_1_n_n = DotDims.plain 256 128 2048 := rfl
theorem dotT_eq : dot_S256x16_S16x2048_S256x2048_1_0_0_1_n_n = DotDims.plain 256 16 2048 := rfl
theorem dotR_eq : dot_S256x2048_S2048x128_S256x128_1_0_0_1_n_n = DotDims.plain 256 2048 128 := rfl

/-- The new-state payload at row p, lane j (channel j / 16, coordinate j % 16). -/
theorem pay6_apply (v0 v1 : Vec Ideal S256x128 .f32) (v3 : Vec Ideal S256x16 .f32) (v7 : Vec Ideal S1x2048 .f32)
    (v11 : Vec Ideal S256x2048 .f32) (v13 : Vec Ideal S128x2048 .bf16) (v15 : Vec Ideal S16x2048 .bf16)
    (hE : IsExpand v13) (hT : IsTile v15) (p : Fin 256) (j : Fin 2048) :
    k1_pay6 v0 v1 v3 v7 v11 v13 v15 (ix2 p j)
      = Ideal.exp (v1 (ix2 p (⟨j.val / 16, by have := j.isLt; omega⟩ : Fin 128)) * v7 (ix2 (0 : Fin 1) j)) * v11 (ix2 p j)
        + (v1 (ix2 p (⟨j.val / 16, by have := j.isLt; omega⟩ : Fin 128)) * v3 (ix2 p (⟨j.val % 16, Nat.mod_lt _ (by norm_num)⟩ : Fin 16)))
          * v0 (ix2 p (⟨j.val / 16, by have := j.isLt; omega⟩ : Fin 128)) := by
  have hd : ∀ v : Vec Ideal S256x128 .f32,
      matmul (F := Ideal) (φ₁ := .bf16) (φ₂ := .bf16) dot_S256x128_S128x2048_S256x2048_1_0_0_1_n_n none (truncf (F := Ideal) .bf16 v bitsLt_bf16_f32)
        (shapeCast S128x2048 v13 shapeCasts_S128x2048_S128x2048) (constant (F := Ideal) S256x2048 .f32 0x00000000#32) (ix2 p j)
        = v (ix2 p (⟨j.val / 16, by have := j.isLt; omega⟩ : Fin 128)) := fun v => by
    rw [shapeCast_self, dotE_eq]
    refine Eq.trans ?_ (spread_channel v v13 hE p j)
    exact Cert.Lib.matmul_plain_zero_apply none _ _ p j
  have hb : matmul (F := Ideal) (φ₁ := .bf16) (φ₂ := .bf16) dot_S256x16_S16x2048_S256x2048_1_0_0_1_n_n none (truncf (F := Ideal) .bf16 (shapeCast S256x16 v3 shapeCasts_S256x16_S256x16) bitsLt_bf16_f32)
        (k1_pay3 (F := Ideal) v15) (constant (F := Ideal) S256x2048 .f32 0x00000000#32) (ix2 p j)
        = v3 (ix2 p (⟨j.val % 16, Nat.mod_lt _ (by norm_num)⟩ : Fin 16)) := by
    unfold k1_pay3
    rw [shapeCast_self, shapeCast_self, dotT_eq]
    refine Eq.trans ?_ (spread_coord v3 v15 hT p j)
    exact Cert.Lib.matmul_plain_zero_apply none _ _ p j
  unfold k1_pay6
  refine congrArg₂ (· + ·) (congrArg₂ (· * ·) (congrArg Ideal.exp (congrArg₂ (· * ·) ?_ ?_)) ?_)
    (congrArg₂ (· * ·) (congrArg₂ (· * ·) ?_ hb) (hd v0))
  · rw [shapeCast_self]; exact hd v1
  · rw [shapeCast_self]; exact broadcastTo_1b_ab_apply _ _ p j
  · rw [shapeCast_self]
  · rw [shapeCast_self]; exact hd v1

/-- The spread C payload at row p, lane j. -/
theorem pay5_apply (v5 : Vec Ideal S256x16 .f32) (v15 : Vec Ideal S16x2048 .bf16) (hT : IsTile v15) (p : Fin 256) (j : Fin 2048) :
    k1_pay5 v5 v15 (ix2 p j) = v5 (ix2 p (⟨j.val % 16, Nat.mod_lt _ (by norm_num)⟩ : Fin 16)) := by
  unfold k1_pay5 k1_pay3
  rw [shapeCast_self, shapeCast_self, dotT_eq]
  refine Eq.trans ?_ (spread_coord v5 v15 hT p j)
  exact Cert.Lib.matmul_plain_zero_apply none _ _ p j

/-- The output payload at row p, channel d: the channel's 16 lanes of state · C added up, plus D · x. -/
theorem pay1_apply (v0 : Vec Ideal S256x128 .f32) (v10 : FVec Ideal S1x128 .f32) (v18 : FVec Ideal S2048x128 .bf16)
    (v26 v33 : FVec Ideal S256x2048 .f32) (hR : IsGroup v18) (p : Fin 256) (d : Fin 128) :
    k1_pay1 v0 v10 v18 v26 v33 (ix2 p d)
      = (∑ s : Fin 16, v33 (ix2 p (⟨16 * d.val + s.val, by have := d.isLt; have := s.isLt; omega⟩ : Fin 2048))
            * v26 (ix2 p (⟨16 * d.val + s.val, by have := d.isLt; have := s.isLt; omega⟩ : Fin 2048)))
        + v10 (ix2 (0 : Fin 1) d) * v0 (ix2 p d) := by
  unfold k1_pay1
  refine congrArg₂ (· + ·) ?_ (congrArg₂ (· * ·) (broadcastTo_1b_ab_apply _ _ p d) rfl)
  rw [dotR_eq]
  refine Eq.trans ?_ (gather_channel (fun i => v33 i * v26 i) v18 hR p d)
  exact Cert.Lib.matmul_plain_zero_apply none _ _ p d

end Cert.Ssm.Body

end
-- ==== Proof.Region1.lean ====
/-
  What the state-update region leaves in its two output arrays, as whole-array functions of the arrays it reads.

  The region's grid is 8 × 16 points; point t = 16·i + b reads rows 256·i … of x, Δ, B, C and of the flattened state,
  the lanes 2048·b … of the flattened state and of the flattened −exp A_log, the channels 128·b … of x, Δ and D, and the
  three 0/1 matrices whole, and it writes the same rows and lanes (channels) of the new flattened state (of y). Lane jj of
  the flattened arrays is channel jj / 16, coordinate jj % 16; inside a block, lane j of block b is lane 2048·b + j, and
  since 2048 is a multiple of 16, (2048·b + j) / 16 = 128·b + j / 16 and (2048·b + j) % 16 = j % 16. So an output entry
  depends only on entries in its own row, and the blocks written back are the restrictions of one whole-array function;
  the 128 blocks tile each output.
-/
import proofs.«168947_j73134703116522_2_alg».proof.Proof.Gen.KernelIdeal.Frame
import proofs.«168947_j73134703116522_2_alg».proof.Proof.Body1
import Idealize.ShloMosaic.Lib.Pipeline.Value

set_option maxRecDepth 16384

noncomputable section

namespace Cert.Ssm.Upd

open Cert.KernelIdeal Cert.KernelIdeal.Gen Idealize.ShloMosaic Idealize.ShloMosaic.TcCoe Idealize.ShloMosaic.ValueIdx
open Idealize.SL.Sem
open Idealize.ShloMosaic.Pipeline (Dat)
open Cert.Ssm.Body

variable (V : (c : Dev nD) → (b : Ref sig .tc) → Buf (Elt Ideal) ((c : Thread nD τ).loc b))

theorem hz : (![0, 0] : Fin 2 → Nat) = fun _ => 0 := funext fun a => by fin_cases a <;> rfl

/-- The new flattened state at row r, lane jj (channel jj / 16, coordinate jj % 16). -/
def stateAt (X DL : S2048x2048.Idx → EReal) (PREV : S2048x32768.Idx → EReal) (Bm : S2048x16.Idx → EReal)
    (AF : S1x32768.Idx → EReal) (r : Fin 2048) (jj : Fin 32768) : EReal :=
  Ideal.exp (DL (ix2 r (⟨jj.val / 16, by have := jj.isLt; omega⟩ : Fin 2048)) * AF (ix2 (0 : Fin 1) jj)) * PREV (ix2 r jj)
    + (DL (ix2 r (⟨jj.val / 16, by have := jj.isLt; omega⟩ : Fin 2048)) * Bm (ix2 r (⟨jj.val % 16, Nat.mod_lt _ (by norm_num)⟩ : Fin 16)))
      * X (ix2 r (⟨jj.val / 16, by have := jj.isLt; omega⟩ : Fin 2048))

/-- The output at row r, channel d. -/
def yAt (X DL : S2048x2048.Idx → EReal) (PREV : S2048x32768.Idx → EReal) (Bm Cm : S2048x16.Idx → EReal)
    (AF : S1x32768.Idx → EReal) (DP : S1x2048.Idx → EReal) (r d : Fin 2048) : EReal :=
  (∑ s : Fin 16, stateAt X DL PREV Bm AF r (⟨16 * d.val + s.val, by have := d.isLt; have := s.isLt; omega⟩ : Fin 32768) * Cm (ix2 r s))
    + DP (ix2 (0 : Fin 1) d) * X (ix2 r d)

def stateOf (X DL : S2048x2048.Idx → EReal) (PREV : S2048x32768.Idx → EReal) (Bm : S2048x16.Idx → EReal)
    (AF : S1x32768.Idx → EReal) : S2048x32768.Idx → EReal := fun i => stateAt X DL PREV Bm AF (i 0) (i 1)

def yOf (X DL : S2048x2048.Idx → EReal) (PREV : S2048x32768.Idx → EReal) (Bm Cm : S2048x16.Idx → EReal)
    (AF : S1x32768.Idx → EReal) (DP : S1x2048.Idx → EReal) : S2048x2048.Idx → EReal :=
  fun i => yAt X DL PREV Bm Cm AF DP (i 0) (i 1)

/-- Where each window's block sits at point t = 16·i + b. -/
theorem idx_facts : ∀ t : Fin cfg1.N,
    win1_0.index t (0 : Fin 2) = t.val / 16 ∧ win1_0.index t (1 : Fin 2) = t.val % 16
    ∧ win1_1.index t (0 : Fin 2) = t.val / 16 ∧ win1_1.index t (1 : Fin 2) = t.val % 16
    ∧ win1_2.index t (0 : Fin 2) = t.val / 16 ∧ win1_2.index t (1 : Fin 2) = t.val % 16
    ∧ win1_3.index t (0 : Fin 2) = t.val / 16 ∧ win1_3.index t (1 : Fin 2) = 0
    ∧ win1_4.index t (0 : Fin 2) = t.val / 16 ∧ win1_4.index t (1 : Fin 2) = 0
    ∧ win1_5.index t (0 : Fin 2) = 0 ∧ win1_5.index t (1 : Fin 2) = t.val % 16
    ∧ win1_6.index t (0 : Fin 2) = 0 ∧ win1_6.index t (1 : Fin 2) = t.val % 16
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = t.val / 16 ∧ win1_10.index t (1 : Fin 2) = t.val % 16
    ∧ win1_11.index t (0 : Fin 2) = t.val / 16 ∧ win1_11.index t (1 : Fin 2) = t.val % 16 :=
  (by decide +kernel : ∀ t : Fin grid1.N, _)

/-- Window 0's block at point t, read at (p, q), is its array at (256·(t.val / 16) + p, 128·(t.val % 16) + q). -/
theorem blk0_apply (c : Dev nD) (t : Fin cfg1.N) (p : Fin 256) (q : Fin 128) (r : Fin 2048) (k : Fin 2048)
    (hr : r.val = 256 * (t.val / 16) + p.val) (hk : k.val = 128 * (t.val % 16) + q.val) :
    (iblk1 V c 0 t : Vec Ideal S256x128 .f32) (ix2 p q) = (V c main_arg0 : S2048x2048.Idx → EReal) (ix2 r k) := by
  have e0 := (idx_facts t).1
  have e1 := (idx_facts t).2.1
  unfold iblk1
  rw [View.read_apply]
  refine congrArg (V c main_arg0 : S2048x2048.Idx → EReal) (funext fun a => Fin.ext ?_)
  match a with
  | ⟨0, _⟩ => show win1_0.index t (0 : Fin 2) * 256 + 1 * p.val = r.val; rw [e0, hr]; omega
  | ⟨1, _⟩ => show win1_0.index t (1 : Fin 2) * 128 + 1 * q.val = k.val; rw [e1, hk]; omega

/-- Window 1's block at point t, read at (p, q), is its array at (256·(t.val / 16) + p, 2048·(t.val % 16) + q). -/
theorem blk1_apply (c : Dev nD) (t : Fin cfg1.N) (p : Fin 256) (q : Fin 2048) (r : Fin 2048) (k : Fin 32768)
    (hr : r.val = 256 * (t.val / 16) + p.val) (hk : k.val = 2048 * (t.val % 16) + q.val) :
    (iblk1 V c 1 t : Vec Ideal S256x2048 .f32) (ix2 p q) = (V c main_v8 : S2048x32768.Idx → EReal) (ix2 r k) := by
  have e0 := (idx_facts t).2.2.1
  have e1 := (idx_facts t).2.2.2.1
  unfold iblk1
  rw [View.read_apply]
  refine congrArg (V c main_v8 : S2048x32768.Idx → EReal) (funext fun a => Fin.ext ?_)
  match a with
  | ⟨0, _⟩ => show win1_1.index t (0 : Fin 2) * 256 + 1 * p.val = r.val; rw [e0, hr]; omega
  | ⟨1, _⟩ => show win1_1.index t (1 : Fin 2) * 2048 + 1 * q.val = k.val; rw [e1, hk]; omega

/-- Window 2's block at point t, read at (p, q), is its array at (256·(t.val / 16) + p, 128·(t.val % 16) + q). -/
theorem blk2_apply (c : Dev nD) (t : Fin cfg1.N) (p : Fin 256) (q : Fin 128) (r : Fin 2048) (k : Fin 2048)
    (hr : r.val = 256 * (t.val / 16) + p.val) (hk : k.val = 128 * (t.val % 16) + q.val) :
    (iblk1 V c 2 t : Vec Ideal S256x128 .f32) (ix2 p q) = (V c main_v7_0 : S2048x2048.Idx → EReal) (ix2 r k) := by
  have e0 := (idx_facts t).2.2.2.2.1
  have e1 := (idx_facts t).2.2.2.2.2.1
  unfold iblk1
  rw [View.read_apply]
  refine congrArg (V c main_v7_0 : S2048x2048.Idx → EReal) (funext fun a => Fin.ext ?_)
  match a with
  | ⟨0, _⟩ => show win1_2.index t (0 : Fin 2) * 256 + 1 * p.val = r.val; rw [e0, hr]; omega
  | ⟨1, _⟩ => show win1_2.index t (1 : Fin 2) * 128 + 1 * q.val = k.val; rw [e1, hk]; omega

/-- Window 3's block at point t, read at (p, q), is its array at (256·(t.val / 16) + p, 16·(0) + q). -/
theorem blk3_apply (c : Dev nD) (t : Fin cfg1.N) (p : Fin 256) (q : Fin 16) (r : Fin 2048) (k : Fin 16)
    (hr : r.val = 256 * (t.val / 16) + p.val) (hk : k.val = 16 * (0) + q.val) :
    (iblk1 V c 3 t : Vec Ideal S256x16 .f32) (ix2 p q) = (V c main_v7_1 : S2048x16.Idx → EReal) (ix2 r k) := by
  have e0 := (idx_facts t).2.2.2.2.2.2.1
  have e1 := (idx_facts t).2.2.2.2.2.2.2.1
  unfold iblk1
  rw [View.read_apply]
  refine congrArg (V c main_v7_1 : S2048x16.Idx → EReal) (funext fun a => Fin.ext ?_)
  match a with
  | ⟨0, _⟩ => show win1_3.index t (0 : Fin 2) * 256 + 1 * p.val = r.val; rw [e0, hr]; omega
  | ⟨1, _⟩ => show win1_3.index t (1 : Fin 2) * 16 + 1 * q.val = k.val; rw [e1, hk]; omega

/-- Window 4's block at point t, read at (p, q), is its array at (256·(t.val / 16) + p, 16·(0) + q). -/
theorem blk4_apply (c : Dev nD) (t : Fin cfg1.N) (p : Fin 256) (q : Fin 16) (r : Fin 2048) (k : Fin 16)
    (hr : r.val = 256 * (t.val / 16) + p.val) (hk : k.val = 16 * (0) + q.val) :
    (iblk1 V c 4 t : Vec Ideal S256x16 .f32) (ix2 p q) = (V c main_v7_2 : S2048x16.Idx → EReal) (ix2 r k) := by
  have e0 := (idx_facts t).2.2.2.2.2.2.2.2.1
  have e1 := (idx_facts t).2.2.2.2.2.2.2.2.2.1
  unfold iblk1
  rw [View.read_apply]
  refine congrArg (V c main_v7_2 : S2048x16.Idx → EReal) (funext fun a => Fin.ext ?_)
  match a with
  | ⟨0, _⟩ => show win1_4.index t (0 : Fin 2) * 256 + 1 * p.val = r.val; rw [e0, hr]; omega
  | ⟨1, _⟩ => show win1_4.index t (1 : Fin 2) * 16 + 1 * q.val = k.val; rw [e1, hk]; omega

/-- Window 5's block at point t, read at (p, q), is its array at (1·(0) + p, 2048·(t.val % 16) + q). -/
theorem blk5_apply (c : Dev nD) (t : Fin cfg1.N) (p : Fin 1) (q : Fin 2048) (r : Fin 1) (k : Fin 32768)
    (hr : r.val = 1 * (0) + p.val) (hk : k.val = 2048 * (t.val % 16) + q.val) :
    (iblk1 V c 5 t : Vec Ideal S1x2048 .f32) (ix2 p q) = (V c main_v9 : S1x32768.Idx → EReal) (ix2 r k) := by
  have e0 := (idx_facts t).2.2.2.2.2.2.2.2.2.2.1
  have e1 := (idx_facts t).2.2.2.2.2.2.2.2.2.2.2.1
  unfold iblk1
  rw [View.read_apply]
  refine congrArg (V c main_v9 : S1x32768.Idx → EReal) (funext fun a => Fin.ext ?_)
  match a with
  | ⟨0, _⟩ => show win1_5.index t (0 : Fin 2) * 1 + 1 * p.val = r.val; rw [e0, hr]; omega
  | ⟨1, _⟩ => show win1_5.index t (1 : Fin 2) * 2048 + 1 * q.val = k.val; rw [e1, hk]; omega

/-- Window 6's block at point t, read at (p, q), is its array at (1·(0) + p, 128·(t.val % 16) + q). -/
theorem blk6_apply (c : Dev nD) (t : Fin cfg1.N) (p : Fin 1) (q : Fin 128) (r : Fin 1) (k : Fin 2048)
    (hr : r.val = 1 * (0) + p.val) (hk : k.val = 128 * (t.val % 16) + q.val) :
    (iblk1 V c 6 t : Vec Ideal S1x128 .f32) (ix2 p q) = (V c main_v3 : S1x2048.Idx → EReal) (ix2 r k) := by
  have e0 := (idx_facts t).2.2.2.2.2.2.2.2.2.2.2.2.1
  have e1 := (idx_facts t).2.2.2.2.2.2.2.2.2.2.2.2.2.1
  unfold iblk1
  rw [View.read_apply]
  refine congrArg (V c main_v3 : S1x2048.Idx → EReal) (funext fun a => Fin.ext ?_)
  match a with
  | ⟨0, _⟩ => show win1_6.index t (0 : Fin 2) * 1 + 1 * p.val = r.val; rw [e0, hr]; omega
  | ⟨1, _⟩ => show win1_6.index t (1 : Fin 2) * 128 + 1 * q.val = k.val; rw [e1, hk]; omega

/-- Window 7's block at point t, read at (p, q), is its array at (128·(0) + p, 2048·(0) + q). -/
theorem blk7_apply (c : Dev nD) (t : Fin cfg1.N) (p : Fin 128) (q : Fin 2048) (r : Fin 128) (k : Fin 2048)
    (hr : r.val = 128 * (0) + p.val) (hk : k.val = 2048 * (0) + q.val) :
    (iblk1 V c 7 t : Vec Ideal S128x2048 .bf16) (ix2 p q) = (V c main_v18 : S128x2048.Idx → EReal) (ix2 r k) := by
  have e0 := (idx_facts t).2.2.2.2.2.2.2.2.2.2.2.2.2.2.1
  have e1 := (idx_facts t).2.2.2.2.2.2.2.2.2.2.2.2.2.2.2.1
  unfold iblk1
  rw [View.read_apply]
  refine congrArg (V c main_v18 : S128x2048.Idx → EReal) (funext fun a => Fin.ext ?_)
  match a with
  | ⟨0, _⟩ => show win1_7.index t (0 : Fin 2) * 128 + 1 * p.val = r.val; rw [e0, hr]; omega
  | ⟨1, _⟩ => show win1_7.index t (1 : Fin 2) * 2048 + 1 * q.val = k.val; rw [e1, hk]; omega

/-- Window 8's block at point t, read at (p, q), is its array at (16·(0) + p, 2048·(0) + q). -/
theorem blk8_apply (c : Dev nD) (t : Fin cfg1.N) (p : Fin 16) (q : Fin 2048) (r : Fin 16) (k : Fin 2048)
    (hr : r.val = 16 * (0) + p.val) (hk : k.val = 2048 * (0) + q.val) :
    (iblk1 V c 8 t : Vec Ideal S16x2048 .bf16) (ix2 p q) = (V c main_v28 : S16x2048.Idx → EReal) (ix2 r k) := by
  have e0 := (idx_facts t).2.2.2.2.2.2.2.2.2.2.2.2.2.2.2.2.1
  have e1 := (idx_facts t).2.2.2.2.2.2.2.2.2.2.2.2.2.2.2.2.2.1
  unfold iblk1
  rw [View.read_apply]
  refine congrArg (V c main_v28 : S16x2048.Idx → EReal) (funext fun a => Fin.ext ?_)
  match a with
  | ⟨0, _⟩ => show win1_8.index t (0 : Fin 2) * 16 + 1 * p.val = r.val; rw [e0, hr]; omega
  | ⟨1, _⟩ => show win1_8.index t (1 : Fin 2) * 2048 + 1 * q.val = k.val; rw [e1, hk]; omega

/-- Window 9's block at point t, read at (p, q), is its array at (2048·(0) + p, 128·(0) + q). -/
theorem blk9_apply (c : Dev nD) (t : Fin cfg1.N) (p : Fin 2048) (q : Fin 128) (r : Fin 2048) (k : Fin 128)
    (hr : r.val = 2048 * (0) + p.val) (hk : k.val = 128 * (0) + q.val) :
    (iblk1 V c 9 t : Vec Ideal S2048x128 .bf16) (ix2 p q) = (V c main_v29 : S2048x128.Idx → EReal) (ix2 r k) := by
  have e0 := (idx_facts t).2.2.2.2.2.2.2.2.2.2.2.2.2.2.2.2.2.2.1
  have e1 := (idx_facts t).2.2.2.2.2.2.2.2.2.2.2.2.2.2.2.2.2.2.2.1
  unfold iblk1
  rw [View.read_apply]
  refine congrArg (V c main_v29 : S2048x128.Idx → EReal) (funext fun a => Fin.ext ?_)
  match a with
  | ⟨0, _⟩ => show win1_9.index t (0 : Fin 2) * 2048 + 1 * p.val = r.val; rw [e0, hr]; omega
  | ⟨1, _⟩ => show win1_9.index t (1 : Fin 2) * 128 + 1 * q.val = k.val; rw [e1, hk]; omega

variable (hE : ∀ c, IsExpand (V c main_v18 : S128x2048.Idx → EReal)) (hT : ∀ c, IsTile (V c main_v28 : S16x2048.Idx → EReal))
  (hR : ∀ c, IsGroup (V c main_v29 : S2048x128.Idx → EReal))

include hE hT in
/-- The new-state payload of point t at (p, q) is the whole-array state at row 256·i + p, lane 2048·b + q. -/
theorem state_block (c : Dev nD) (t : Fin cfg1.N) (p : Fin 256) (q : Fin 2048) (r : Fin 2048) (jj : Fin 32768)
    (hr : r.val = 256 * (t.val / 16) + p.val) (hj : jj.val = 2048 * (t.val % 16) + q.val) :
    k1_pay6 (iblk1 V c 0 t) (iblk1 V c 2 t) (iblk1 V c 3 t) (iblk1 V c 5 t) (iblk1 V c 1 t) (iblk1 V c 7 t) (iblk1 V c 8 t) (ix2 p q)
      = stateAt (V c main_arg0) (V c main_v7_0) (V c main_v8) (V c main_v7_1) (V c main_v9) r jj := by
  have hEb : IsExpand (iblk1 V c 7 t : Vec Ideal S128x2048 .bf16) := fun k j' =>
    (blk7_apply V c t k j' k j' (by omega) (by omega)).trans (hE c k j')
  have hTb : IsTile (iblk1 V c 8 t : Vec Ideal S16x2048 .bf16) := fun s j' =>
    (blk8_apply V c t s j' s j' (by omega) (by omega)).trans (hT c s j')
  refine (pay6_apply _ _ _ _ _ _ _ hEb hTb p q).trans ?_
  unfold stateAt
  refine congrArg₂ (· + ·) (congrArg₂ (· * ·) (congrArg Ideal.exp (congrArg₂ (· * ·) ?_ ?_)) ?_)
    (congrArg₂ (· * ·) (congrArg₂ (· * ·) ?_ ?_) ?_)
  · exact blk2_apply V c t p _ r _ hr (by show jj.val / 16 = 128 * (t.val % 16) + q.val / 16; omega)
  · exact blk5_apply V c t 0 q 0 jj (by decide) hj
  · exact blk1_apply V c t p q r jj hr hj
  · exact blk2_apply V c t p _ r _ hr (by show jj.val / 16 = 128 * (t.val % 16) + q.val / 16; omega)
  · exact blk3_apply V c t p _ r _ hr (by show jj.val % 16 = 16 * 0 + q.val % 16; omega)
  · exact blk0_apply V c t p _ r _ hr (by show jj.val / 16 = 128 * (t.val % 16) + q.val / 16; omega)

include hE hT in
/-- What point t writes back to the flattened state is block t of stateOf. -/
theorem flushed11_eq (c : Dev nD) (t : Fin cfg1.N) :
    (dat1 V c).flushed 11 t = ((cfg1.win 11).blk t).view.read (Elt Ideal)
      (stateOf (V c main_arg0) (V c main_v7_0) (V c main_v8) (V c main_v7_1) (V c main_v9)) := by
  show (cfg1.win 11).cut (grid1.coords t) ((dat1 V c).after 11 t) = _
  rw [after1_11]
  unfold out1_11
  rw [View.canon_unit_zero hz]
  simp only [View.ld_unit_zero (S := S256x128) hz, View.ld_unit_zero (S := S256x2048) hz, View.ld_unit_zero (S := S256x16) hz,
    View.ld_unit_zero (S := S1x2048) hz, View.ld_unit_zero (S := S128x2048) hz, View.ld_unit_zero (S := S16x2048) hz]
  funext j
  obtain ⟨p, q, rfl⟩ : ∃ (p : Fin 256) (q : Fin 2048), j = ix2 p q := ⟨j 0, j 1, eq_ix2 j⟩
  have e0 := (idx_facts t).2.2.2.2.2.2.2.2.2.2.2.2.2.2.2.2.2.2.2.2.2.2.1
  have e1 := (idx_facts t).2.2.2.2.2.2.2.2.2.2.2.2.2.2.2.2.2.2.2.2.2.2.2
  have ht : t.val < 128 := by have h := t.isLt; have hN : cfg1.N = 128 := N_1; omega
  have hr : 256 * (t.val / 16) + p.val < 2048 := by have := p.isLt; omega
  have hk : 2048 * (t.val % 16) + q.val < 32768 := by have := q.isLt; omega
  rw [View.read_apply]
  have hemb : ((cfg1.win 11).blk t).view.emb (ix2 p q)
      = (ix2 (⟨256 * (t.val / 16) + p.val, hr⟩ : Fin 2048) (⟨2048 * (t.val % 16) + q.val, hk⟩ : Fin 32768) : S2048x32768.Idx) := by
    funext a; apply Fin.ext
    match a with
    | ⟨0, _⟩ => show win1_11.index t (0 : Fin 2) * 256 + 1 * p.val = 256 * (t.val / 16) + p.val; rw [e0]; omega
    | ⟨1, _⟩ => show win1_11.index t (1 : Fin 2) * 2048 + 1 * q.val = 2048 * (t.val % 16) + q.val; rw [e1]; omega
  rw [hemb]
  exact state_block V hE hT c t p q _ _ rfl rfl

include hE hT hR in
/-- What point t writes back to the output is block t of yOf. -/
theorem flushed10_eq (c : Dev nD) (t : Fin cfg1.N) :
    (dat1 V c).flushed 10 t = ((cfg1.win 10).blk t).view.read (Elt Ideal)
      (yOf (V c main_arg0) (V c main_v7_0) (V c main_v8) (V c main_v7_1) (V c main_v7_2) (V c main_v9) (V c main_v3)) := by
  show (cfg1.win 10).cut (grid1.coords t) ((dat1 V c).after 10 t) = _
  rw [after1_10]
  unfold out1_10
  rw [View.canon_unit_zero hz]
  simp only [View.ld_unit_zero (S := S256x128) hz, View.ld_unit_zero (S := S256x2048) hz, View.ld_unit_zero (S := S256x16) hz,
    View.ld_unit_zero (S := S1x2048) hz, View.ld_unit_zero (S := S1x128) hz, View.ld_unit_zero (S := S128x2048) hz,
    View.ld_unit_zero (S := S16x2048) hz, View.ld_unit_zero (S := S2048x128) hz]
  funext j
  obtain ⟨p, dl, rfl⟩ : ∃ (p : Fin 256) (dl : Fin 128), j = ix2 p dl := ⟨j 0, j 1, eq_ix2 j⟩
  have hRb : IsGroup (k1_pay4 (iblk1 V c 9 t : Vec Ideal S2048x128 .bf16)) := fun jl k => by
    unfold k1_pay4
    rw [shapeCast_self]
    exact (blk9_apply V c t jl k jl k (by omega) (by omega)).trans (hR c jl k)
  have hTb : IsTile (iblk1 V c 8 t : Vec Ideal S16x2048 .bf16) := fun s j' =>
    (blk8_apply V c t s j' s j' (by omega) (by omega)).trans (hT c s j')
  refine (pay1_apply _ _ _ _ _ hRb p dl).trans ?_
  have e0 := (idx_facts t).2.2.2.2.2.2.2.2.2.2.2.2.2.2.2.2.2.2.2.2.1
  have e1 := (idx_facts t).2.2.2.2.2.2.2.2.2.2.2.2.2.2.2.2.2.2.2.2.2.1
  have ht : t.val < 128 := by have h := t.isLt; have hN : cfg1.N = 128 := N_1; omega
  have hr : 256 * (t.val / 16) + p.val < 2048 := by have := p.isLt; omega
  have hd : 128 * (t.val % 16) + dl.val < 2048 := by have := dl.isLt; omega
  rw [View.read_apply]
  have hemb : ((cfg1.win 10).blk t).view.emb (ix2 p dl)
      = (ix2 (⟨256 * (t.val / 16) + p.val, hr⟩ : Fin 2048) (⟨128 * (t.val % 16) + dl.val, hd⟩ : Fin 2048) : S2048x2048.Idx) := by
    funext a; apply Fin.ext
    match a with
    | ⟨0, _⟩ => show win1_10.index t (0 : Fin 2) * 256 + 1 * p.val = 256 * (t.val / 16) + p.val; rw [e0]; omega
    | ⟨1, _⟩ => show win1_10.index t (1 : Fin 2) * 128 + 1 * dl.val = 128 * (t.val % 16) + dl.val; rw [e1]; omega
  rw [hemb]
  show _ = yAt _ _ _ _ _ _ _ (⟨256 * (t.val / 16) + p.val, hr⟩ : Fin 2048) (⟨128 * (t.val % 16) + dl.val, hd⟩ : Fin 2048)
  unfold yAt
  refine congrArg₂ (· + ·) (Finset.sum_congr rfl fun s _ => congrArg₂ (· * ·) ?_ ?_) (congrArg₂ (· * ·) ?_ ?_)
  · exact state_block V hE hT c t p _ _ _ rfl (by show 16 * (128 * (t.val % 16) + dl.val) + s.val = 2048 * (t.val % 16) + (16 * dl.val + s.val); omega)
  · refine (pay5_apply _ _ hTb p _).trans ?_
    exact blk4_apply V c t p _ _ s rfl (by show s.val = 16 * 0 + (16 * dl.val + s.val) % 16; have := s.isLt; omega)
  · unfold k1_pay2
    rw [shapeCast_self]
    exact blk6_apply V c t 0 dl 0 _ (by decide) rfl
  · exact blk0_apply V c t p dl _ _ rfl rfl

/-- Every pair (block row below 8, block column below 16) is some point's. -/
theorem pt_of (a : Fin 8) (b : Fin 16) : ∃ t : Fin cfg1.N, t.val = 16 * a.val + b.val :=
  ⟨⟨16 * a.val + b.val, by rw [show cfg1.N = 128 from N_1]; have := a.isLt; have := b.isLt; omega⟩, rfl⟩

/-- The 128 blocks cover the output. -/
theorem cover10 (i : S2048x2048.Idx) : ∃ t : Fin cfg1.N, (cfg1.win 10).flush t = true ∧ i ∈ ((cfg1.win 10).blk t).view.set := by
  have hi0 : (i 0).val < 2048 := (i 0).isLt
  have hi1 : (i 1).val < 2048 := (i 1).isLt
  obtain ⟨t, ht⟩ := pt_of ⟨(i 0).val / 256, by omega⟩ ⟨(i 1).val / 128, by omega⟩
  have ht' : t.val = 16 * ((i 0).val / 256) + (i 1).val / 128 := ht
  have e0 := (idx_facts t).2.2.2.2.2.2.2.2.2.2.2.2.2.2.2.2.2.2.2.2.1
  have e1 := (idx_facts t).2.2.2.2.2.2.2.2.2.2.2.2.2.2.2.2.2.2.2.2.2.1
  refine ⟨t, flush1_10 t, ?_⟩
  show i ∈ ((View.whole main_v30_0).slice (win1_10.rect t)).set
  rw [View.set_slice_whole, Rect.mem_set_unit]
  intro a
  match a with
  | ⟨0, _⟩ => show win1_10.index t (0 : Fin 2) * 256 ≤ (i 0).val ∧ (i 0).val < win1_10.index t (0 : Fin 2) * 256 + 256; rw [e0]; omega
  | ⟨1, _⟩ => show win1_10.index t (1 : Fin 2) * 128 ≤ (i 1).val ∧ (i 1).val < win1_10.index t (1 : Fin 2) * 128 + 128; rw [e1]; omega

/-- The 128 blocks cover the flattened state. -/
theorem cover11 (i : S2048x32768.Idx) : ∃ t : Fin cfg1.N, (cfg1.win 11).flush t = true ∧ i ∈ ((cfg1.win 11).blk t).view.set := by
  have hi0 : (i 0).val < 2048 := (i 0).isLt
  have hi1 : (i 1).val < 32768 := (i 1).isLt
  obtain ⟨t, ht⟩ := pt_of ⟨(i 0).val / 256, by omega⟩ ⟨(i 1).val / 2048, by omega⟩
  have ht' : t.val = 16 * ((i 0).val / 256) + (i 1).val / 2048 := ht
  have e0 := (idx_facts t).2.2.2.2.2.2.2.2.2.2.2.2.2.2.2.2.2.2.2.2.2.2.1
  have e1 := (idx_facts t).2.2.2.2.2.2.2.2.2.2.2.2.2.2.2.2.2.2.2.2.2.2.2
  refine ⟨t, flush1_11 t, ?_⟩
  show i ∈ ((View.whole main_v30_1).slice (win1_11.rect t)).set
  rw [View.set_slice_whole, Rect.mem_set_unit]
  intro a
  match a with
  | ⟨0, _⟩ => show win1_11.index t (0 : Fin 2) * 256 ≤ (i 0).val ∧ (i 0).val < win1_11.index t (0 : Fin 2) * 256 + 256; rw [e0]; omega
  | ⟨1, _⟩ => show win1_11.index t (1 : Fin 2) * 2048 ≤ (i 1).val ∧ (i 1).val < win1_11.index t (1 : Fin 2) * 2048 + 2048; rw [e1]; omega

include hE hT hR in
/-- After the region the output array is yOf of the arrays the region read. -/
theorem final10 (c : Dev nD) : (dat1 V c).arrAt 10 cfg1.N
    = yOf (V c main_arg0) (V c main_v7_0) (V c main_v8) (V c main_v7_1) (V c main_v7_2) (V c main_v9) (V c main_v3) :=
  (dat1 V c).arrAt_eq_of_cover 10 _ (fun t _ => flushed10_eq V hE hT hR c t) cover10

include hE hT in
/-- After the region the flattened state array is stateOf of the arrays the region read. -/
theorem final11 (c : Dev nD) : (dat1 V c).arrAt 11 cfg1.N
    = stateOf (V c main_arg0) (V c main_v7_0) (V c main_v8) (V c main_v7_1) (V c main_v9) :=
  (dat1 V c).arrAt_eq_of_cover 11 _ (fun t _ => flushed11_eq V hE hT c t) cover11

end Cert.Ssm.Upd

end
-- ==== Proof.Bridge.lean ====
/-
  The two regions' whole-array functions, composed, are the specification.

  The state-update region computes on flattened arrays: lane jj of a row is channel jj / 16, coordinate jj % 16, so lane
  16·d + s is channel d, coordinate s. Given that the arrays it reads are x itself, the projection region's Δ, B and C,
  the flattened previous state, the flattened −exp A_log and the row D, its new flattened state at lane 16·d + s is the
  specification's new state at (d, s), and its output at channel d is the specification's output: the sum over the 16
  coordinates is the same sum, term by term.
-/
import proofs.«168947_j73134703116522_2_alg».proof.Proof.Spec
import proofs.«168947_j73134703116522_2_alg».proof.Proof.Region0
import proofs.«168947_j73134703116522_2_alg».proof.Proof.Region1

set_option maxRecDepth 16384

noncomputable section

namespace Cert.Ssm.Bridge

open Cert.KernelIdeal Idealize.ShloMosaic Idealize.ShloMosaic.ValueIdx
open Cert.Ssm.Proj Cert.Ssm.Upd

variable (x wd : SX.Idx → EReal) (prev : SP.Idx → EReal) (alog : SA.Idx → EReal) (wb wc : SW.Idx → EReal) (bd dp : SV.Idx → EReal)
variable (PREV : S2048x32768.Idx → EReal) (AF : S1x32768.Idx → EReal) (DP b2 : S1x2048.Idx → EReal)

/-- The step-size array at (r, d) is the specification's Δ, when the bias row is b_Δ. -/
theorem deltaOf_apply (hb2 : ∀ n : Fin 2048, b2 (ix2 (0 : Fin 1) n) = bd (ix1 n)) (r d : Fin 2048) :
    deltaOf x wd b2 (ix2 r d) = delta x wd bd r d := by
  show softplus (rowDot x wd r d + b2 (ix2 (0 : Fin 1) d)) = softplus (rowDot x wd r d + bd (ix1 d))
  rw [hb2 d]

/-- The flattened new state at lane 16·d + s is the specification's new state at (d, s). -/
theorem stateAt_eq (hb2 : ∀ n : Fin 2048, b2 (ix2 (0 : Fin 1) n) = bd (ix1 n))
    (hPREV : ∀ (r : Fin 2048) (jj : Fin 32768) (hq : jj.val / 16 < 2048) (hr : jj.val % 16 < 16),
      PREV (ix2 r jj) = prev (ix3 r (⟨jj.val / 16, hq⟩ : Fin 2048) (⟨jj.val % 16, hr⟩ : Fin 16)))
    (hAF : ∀ (jj : Fin 32768) (hq : jj.val / 16 < 2048) (hr : jj.val % 16 < 16),
      AF (ix2 (0 : Fin 1) jj) = -(Ideal.exp (alog (ix2 (⟨jj.val / 16, hq⟩ : Fin 2048) (⟨jj.val % 16, hr⟩ : Fin 16)))))
    (r d : Fin 2048) (s : Fin 16) (jj : Fin 32768) (hj : jj.val = 16 * d.val + s.val) :
    stateAt x (deltaOf x wd b2) PREV (projOf x wb) AF r jj = stateNew x prev alog wb wd bd r d s := by
  have hq : jj.val / 16 < 2048 := by have := jj.isLt; omega
  have hr : jj.val % 16 < 16 := Nat.mod_lt _ (by norm_num)
  have h1 : (⟨jj.val / 16, hq⟩ : Fin 2048) = d := Fin.ext (by show jj.val / 16 = d.val; have := s.isLt; omega)
  have h2 : (⟨jj.val % 16, hr⟩ : Fin 16) = s := Fin.ext (by show jj.val % 16 = s.val; have := s.isLt; omega)
  unfold stateAt stateNew
  have e1 : deltaOf x wd b2 (ix2 r (⟨jj.val / 16, hq⟩ : Fin 2048)) = delta x wd bd r d := by
    rw [h1]; exact deltaOf_apply x wd bd b2 hb2 r d
  have e2 : AF (ix2 (0 : Fin 1) jj) = -(Ideal.exp (alog (ix2 d s))) := by
    rw [hAF jj hq hr, h1, h2]
  have e3 : PREV (ix2 r jj) = prev (ix3 r d s) := by
    rw [hPREV r jj hq hr, h1, h2]
  have e4 : projOf x wb (ix2 r (⟨jj.val % 16, hr⟩ : Fin 16)) = rowDot x wb r s := by
    rw [h2]; rfl
  have e5 : x (ix2 r (⟨jj.val / 16, hq⟩ : Fin 2048)) = x (ix2 r d) := by rw [h1]
  exact congrArg₂ (· + ·) (congrArg₂ (· * ·) (congrArg Ideal.exp (congrArg₂ (· * ·) e1 e2)) e3)
    (congrArg₂ (· * ·) (congrArg₂ (· * ·) e1 e4) e5)

/-- The flattened new-state array, read at lane 16·d + s, is the specification's state array at (r, d, s). -/
theorem stateOf_apply (hb2 : ∀ n : Fin 2048, b2 (ix2 (0 : Fin 1) n) = bd (ix1 n))
    (hPREV : ∀ (r : Fin 2048) (jj : Fin 32768) (hq : jj.val / 16 < 2048) (hr : jj.val % 16 < 16),
      PREV (ix2 r jj) = prev (ix3 r (⟨jj.val / 16, hq⟩ : Fin 2048) (⟨jj.val % 16, hr⟩ : Fin 16)))
    (hAF : ∀ (jj : Fin 32768) (hq : jj.val / 16 < 2048) (hr : jj.val % 16 < 16),
      AF (ix2 (0 : Fin 1) jj) = -(Ideal.exp (alog (ix2 (⟨jj.val / 16, hq⟩ : Fin 2048) (⟨jj.val % 16, hr⟩ : Fin 16)))))
    (r d : Fin 2048) (s : Fin 16) (h : 16 * d.val + s.val < 32768) :
    stateOf x (deltaOf x wd b2) PREV (projOf x wb) AF (ix2 r (⟨16 * d.val + s.val, h⟩ : Fin 32768))
      = stateArr x prev alog wb wd bd (ix3 r d s) :=
  stateAt_eq x wd prev alog wb bd PREV AF b2 hb2 hPREV hAF r d s _ rfl

/-- The output array is the specification's output array. -/
theorem yOf_eq (hb2 : ∀ n : Fin 2048, b2 (ix2 (0 : Fin 1) n) = bd (ix1 n))
    (hPREV : ∀ (r : Fin 2048) (jj : Fin 32768) (hq : jj.val / 16 < 2048) (hr : jj.val % 16 < 16),
      PREV (ix2 r jj) = prev (ix3 r (⟨jj.val / 16, hq⟩ : Fin 2048) (⟨jj.val % 16, hr⟩ : Fin 16)))
    (hAF : ∀ (jj : Fin 32768) (hq : jj.val / 16 < 2048) (hr : jj.val % 16 < 16),
      AF (ix2 (0 : Fin 1) jj) = -(Ideal.exp (alog (ix2 (⟨jj.val / 16, hq⟩ : Fin 2048) (⟨jj.val % 16, hr⟩ : Fin 16)))))
    (hDP : ∀ d : Fin 2048, DP (ix2 (0 : Fin 1) d) = dp (ix1 d)) :
    yOf x (deltaOf x wd b2) PREV (projOf x wb) (projOf x wc) AF DP = yArr x prev alog wb wc wd bd dp := by
  funext i
  obtain ⟨r, d, rfl⟩ : ∃ (r d : Fin 2048), i = ix2 r d := ⟨i 0, i 1, eq_ix2 i⟩
  show yAt x (deltaOf x wd b2) PREV (projOf x wb) (projOf x wc) AF DP r d = yNew x prev alog wb wc wd bd dp r d
  unfold yAt yNew
  refine congrArg₂ (· + ·) (Finset.sum_congr rfl fun s _ => congrArg₂ (· * ·) ?_ rfl) (congrArg₂ (· * ·) (hDP d) rfl)
  exact stateAt_eq x wd prev alog wb bd PREV AF b2 hb2 hPREV hAF r d s _ rfl

end Cert.Ssm.Bridge

end
-- ==== Proof.KernelValue.lean ====
/-
  The idealized kernel program's two results as the specification's arrays.

  The buffer contents at the segment boundaries are a fold from the launch memory: a stretch of host operations
  rewrites the buffers it writes, a region rewrites its output arrays to what its write-backs leave and keeps every
  other buffer. Reading the fold backwards from the two result buffers: the new state is a reshape of the
  state-update region's flattened state; that region read x, the projection region's three outputs, the flattened
  previous state, the flattened −exp A_log, the row D and the three 0/1 matrices; the projection region read x, the
  three weight arrays (a change of float format is the identity) and the bias row. With each of those identified,
  the two regions' whole-array functions compose to the specification.
-/
import proofs.«168947_j73134703116522_2_alg».proof.Proof.Gen.KernelIdeal.Frame
import proofs.«168947_j73134703116522_2_alg».proof.Proof.HostReads
import proofs.«168947_j73134703116522_2_alg».proof.Proof.Region0
import proofs.«168947_j73134703116522_2_alg».proof.Proof.Region1
import proofs.«168947_j73134703116522_2_alg».proof.Proof.Bridge

set_option maxRecDepth 16384

noncomputable section

namespace Cert.Ssm.Value

open Cert.KernelIdeal Cert.KernelIdeal.Gen Idealize.ShloMosaic Idealize.ShloMosaic.TcCoe Idealize.ShloMosaic.ValueIdx
open Idealize.SL.Sem
open Idealize.ShloMosaic.Pipeline (Dat)
open Cert.Ssm.Host Cert.Ssm.Proj Cert.Ssm.Upd Cert.Ssm.Body Cert.Ssm.Bridge

variable (m : (ℓ : Loc nD τ sig) → Buf (Elt Ideal) ℓ) (ρ : Dev nD → PrngReg)

/-! ## What the projection region reads -/

theorem V1_arg0 (c : Dev nD) : V1 m ρ c main_arg0 = m ((c : Thread nD τ).loc main_arg0) := after0_arg0 (W0 m ρ c)
theorem V1_v4 (c : Dev nD) : (V1 m ρ c main_v4 : S2048x2048.Idx → EReal) = m ((c : Thread nD τ).loc main_arg5) := after0_v4 (W0 m ρ c)
theorem V1_v5 (c : Dev nD) : (V1 m ρ c main_v5 : S16x2048.Idx → EReal) = m ((c : Thread nD τ).loc main_arg3) := after0_v5 (W0 m ρ c)
theorem V1_v6 (c : Dev nD) : (V1 m ρ c main_v6 : S16x2048.Idx → EReal) = m ((c : Thread nD τ).loc main_arg4) := after0_v6 (W0 m ρ c)
theorem V1_v2_apply (c : Dev nD) (n : Fin 2048) :
    (V1 m ρ c main_v2 : S1x2048.Idx → EReal) (ix2 (0 : Fin 1) n) = (m ((c : Thread nD τ).loc main_arg6) : S2048.Idx → EReal) (ix1 n) :=
  after0_v2_apply (W0 m ρ c) 0 n

/-! ## What the projection region leaves -/

theorem W2_v7_0 (c : Dev nD) : (W2 m ρ c (Proc.devRef .tc main_v7_0) : S2048x2048.Idx → EReal)
    = deltaOf (m ((c : Thread nD τ).loc main_arg0)) (m ((c : Thread nD τ).loc main_arg5)) (V1 m ρ c main_v2) := by
  refine (W2_arr m ρ c 5).trans ((final5 (V1 m ρ) c).trans ?_)
  rw [V1_arg0, V1_v4]

theorem W2_v7_1 (c : Dev nD) : (W2 m ρ c (Proc.devRef .tc main_v7_1) : S2048x16.Idx → EReal)
    = projOf (m ((c : Thread nD τ).loc main_arg0)) (m ((c : Thread nD τ).loc main_arg3)) := by
  refine (W2_arr m ρ c 6).trans ((final6 (V1 m ρ) c).trans ?_)
  rw [V1_arg0, V1_v5]

theorem W2_v7_2 (c : Dev nD) : (W2 m ρ c (Proc.devRef .tc main_v7_2) : S2048x16.Idx → EReal)
    = projOf (m ((c : Thread nD τ).loc main_arg0)) (m ((c : Thread nD τ).loc main_arg4)) := by
  refine (W2_arr m ρ c 7).trans ((final7 (V1 m ρ) c).trans ?_)
  rw [V1_arg0, V1_v6]

/-- The region reads x through an input window and leaves it as it found it. -/
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)

/-- The previous state, −exp A_log and the row D are no array of the projection region. -/
theorem W2_arg1 (c : Dev nD) : W2 m ρ c (Proc.devRef .tc main_arg1) = m ((c : Thread nD τ).loc main_arg1) :=
  (W2_of_ne m ρ c main_arg1 (by decide)).trans (after0_arg1 (W0 m ρ c))

theorem W2_v1 (c : Dev nD) : (W2 m ρ c (Proc.devRef .tc main_v1) : S2048x16.Idx → EReal)
    = fun i => -(Ideal.exp ((m ((c : Thread nD τ).loc main_arg2) : S2048x16.Idx → EReal) i)) :=
  (W2_of_ne m ρ c main_v1 (by decide)).trans (after0_v1 (W0 m ρ c))

theorem W2_v3_apply (c : Dev nD) (n : Fin 2048) : (W2 m ρ c (Proc.devRef .tc main_v3) : S1x2048.Idx → EReal) (ix2 (0 : Fin 1) n)
    = (m ((c : Thread nD τ).loc main_arg7) : S2048.Idx → EReal) (ix1 n) :=
  (congrFun (W2_of_ne m ρ c main_v3 (by decide)) _).trans (after0_v3_apply (W0 m ρ c) 0 n)

/-! ## What the state-update region reads -/

theorem V3_arg0 (c : Dev nD) : V3 m ρ c main_arg0 = m ((c : Thread nD τ).loc main_arg0) :=
  (after1_arg0 (W2 m ρ c)).trans (W2_arg0 m ρ c)
theorem V3_v7_0 (c : Dev nD) : (V3 m ρ c main_v7_0 : S2048x2048.Idx → EReal)
    = deltaOf (m ((c : Thread nD τ).loc main_arg0)) (m ((c : Thread nD τ).loc main_arg5)) (V1 m ρ c main_v2) :=
  (after1_v7_0 (W2 m ρ c)).trans (W2_v7_0 m ρ c)
theorem V3_v7_1 (c : Dev nD) : (V3 m ρ c main_v7_1 : S2048x16.Idx → EReal)
    = projOf (m ((c : Thread nD τ).loc main_arg0)) (m ((c : Thread nD τ).loc main_arg3)) :=
  (after1_v7_1 (W2 m ρ c)).trans (W2_v7_1 m ρ c)
theorem V3_v7_2 (c : Dev nD) : (V3 m ρ c main_v7_2 : S2048x16.Idx → EReal)
    = projOf (m ((c : Thread nD τ).loc main_arg0)) (m ((c : Thread nD τ).loc main_arg4)) :=
  (after1_v7_2 (W2 m ρ c)).trans (W2_v7_2 m ρ c)

theorem V3_v8_apply (c : Dev nD) (r : Fin 2048) (jj : Fin 32768) (hq : jj.val / 16 < 2048) (hr : jj.val % 16 < 16) :
    (V3 m ρ c main_v8 : S2048x32768.Idx → EReal) (ix2 r jj)
      = (m ((c : Thread nD τ).loc main_arg1) : S2048x2048x16.Idx → EReal) (ix3 r (⟨jj.val / 16, hq⟩ : Fin 2048) (⟨jj.val % 16, hr⟩ : Fin 16)) :=
  (after1_v8_apply (W2 m ρ c) r jj hq hr).trans (congrFun (W2_arg1 m ρ c) _)

theorem V3_v9_apply (c : Dev nD) (jj : Fin 32768) (hq : jj.val / 16 < 2048) (hr : jj.val % 16 < 16) :
    (V3 m ρ c main_v9 : S1x32768.Idx → EReal) (ix2 (0 : Fin 1) jj)
      = -(Ideal.exp ((m ((c : Thread nD τ).loc main_arg2) : S2048x16.Idx → EReal) (ix2 (⟨jj.val / 16, hq⟩ : Fin 2048) (⟨jj.val % 16, hr⟩ : Fin 16)))) :=
  (after1_v9_apply (W2 m ρ c) 0 jj hq hr).trans (congrFun (W2_v1 m ρ c) _)

theorem V3_v3_apply (c : Dev nD) (n : Fin 2048) : (V3 m ρ c main_v3 : S1x2048.Idx → EReal) (ix2 (0 : Fin 1) n)
    = (m ((c : Thread nD τ).loc main_arg7) : S2048.Idx → EReal) (ix1 n) :=
  (congrFun (after1_v3 (W2 m ρ c)) _).trans (W2_v3_apply m ρ c n)

theorem V3_expand (c : Dev nD) : IsExpand (V3 m ρ c main_v18 : S128x2048.Idx → EReal) := fun k j => after1_v18_apply (W2 m ρ c) k j
theorem V3_tile (c : Dev nD) : IsTile (V3 m ρ c main_v28 : S16x2048.Idx → EReal) := fun s j => after1_v28_apply (W2 m ρ c) s j
theorem V3_group (c : Dev nD) : IsGroup (V3 m ρ c main_v29 : S2048x128.Idx → EReal) := fun j k => after1_v29_apply (W2 m ρ c) j k

/-! ## The two results -/

/-- The flattened new state after the state-update region. -/
theorem W4_v30_1 (c : Dev nD) : (W4 m ρ c (Proc.devRef .tc main_v30_1) : S2048x32768.Idx → EReal)
    = stateOf (m ((c : Thread nD τ).loc main_arg0))
        (deltaOf (m ((c : Thread nD τ).loc main_arg0)) (m ((c : Thread nD τ).loc main_arg5)) (V1 m ρ c main_v2))
        (V3 m ρ c main_v8) (projOf (m ((c : Thread nD τ).loc main_arg0)) (m ((c : Thread nD τ).loc main_arg3))) (V3 m ρ c main_v9) := by
  refine (W4_arr m ρ c 11).trans ((final11 (V3 m ρ) (V3_expand m ρ) (V3_tile m ρ) c).trans ?_)
  rw [V3_arg0, V3_v7_0, V3_v7_1]

/-- The output after the state-update region. -/
theorem W4_v30_0 (c : Dev nD) : (W4 m ρ c (Proc.devRef .tc main_v30_0) : S2048x2048.Idx → EReal)
    = yOf (m ((c : Thread nD τ).loc main_arg0))
        (deltaOf (m ((c : Thread nD τ).loc main_arg0)) (m ((c : Thread nD τ).loc main_arg5)) (V1 m ρ c main_v2))
        (V3 m ρ c main_v8) (projOf (m ((c : Thread nD τ).loc main_arg0)) (m ((c : Thread nD τ).loc main_arg3)))
        (projOf (m ((c : Thread nD τ).loc main_arg0)) (m ((c : Thread nD τ).loc main_arg4))) (V3 m ρ c main_v9) (V3 m ρ c main_v3) := by
  refine (W4_arr m ρ c 10).trans ((final10 (V3 m ρ) (V3_expand m ρ) (V3_tile m ρ) (V3_group m ρ) c).trans ?_)
  rw [V3_arg0, V3_v7_0, V3_v7_1, V3_v7_2]

/-- THE OUTPUT: the first result buffer ends holding the specification's y. -/
theorem y_result (c : Dev nD) : W5 m ρ c (Proc.devRef .tc main_v30_0)
    = yArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (after2_v30_0 (W4 m ρ c)).trans ((W4_v30_0 m ρ c).trans
    (yOf_eq _ _ _ _ _ _ _ _ _ _ _ _ (V1_v2_apply m ρ c) (V3_v8_apply m ρ c) (V3_v9_apply m ρ c) (V3_v3_apply m ρ c)))

/-- THE NEW STATE: the second result buffer ends holding the specification's state array. -/
theorem state_result (c : Dev nD) : W5 m ρ c (Proc.devRef .tc main_v31)
    = stateArr (m ((c : Thread nD τ).loc main_arg0)) (m ((c : Thread nD τ).loc main_arg1)) (m ((c : Thread nD τ).loc main_arg2))
        (m ((c : Thread nD τ).loc main_arg3)) (m ((c : Thread nD τ).loc main_arg5)) (m ((c : Thread nD τ).loc main_arg6)) := by
  funext i
  obtain ⟨p, d, s, rfl⟩ : ∃ (p d : Fin 2048) (s : Fin 16), i = ix3 p d s := ⟨i 0, i 1, i 2, eq_ix3 i⟩
  have h : 16 * d.val + s.val < 32768 := by have := d.isLt; have := s.isLt; omega
  refine (after2_v31_apply (W4 m ρ c) p d s h).trans ((congrFun (W4_v30_1 m ρ c) _).trans ?_)
  exact stateOf_apply _ _ _ _ _ _ _ _ _ (V1_v2_apply m ρ c) (V3_v8_apply m ρ c) (V3_v9_apply m ρ c) p d s h

end Cert.Ssm.Value

end
-- ==== Proof.RefValue.lean ====
/-
  The reference program computes the specification: read entry by entry, its state result is
  `stateArr` and its output result is `yArr` of the argument arrays.

  The program's values are followed one operation at a time, in stages named after the mathematics:
  the three row dot products B, C and the pre-activation of Δ; Δ itself (softplus); the new state; the output.
-/
import proofs.«168947_j73134703116522_2_alg».proof.Proof.Spec
import proofs.«168947_j73134703116522_2_alg».proof.Proof.Gen.ReferenceIdeal.Read
import Idealize.ShloMosaic.PureOps.Ideal.Laws
import Idealize.ShloMosaic.Lib.ValueIdx

set_option maxRecDepth 16384

noncomputable section

namespace Cert.Ssm.Ref

open Idealize.ShloMosaic Idealize.ShloMosaic.ValueIdx
open Cert.ReferenceIdeal Cert.ReferenceIdeal.Read

/-! ## Index equations: the program's composed index maps at an index given by coordinates -/

/-- The left operand of the dot product with W_B is read at (p, k). -/
theorem lidx_v3_ix (p : Fin 2048) (s : Fin 16) (k : Fin 2048) : lidx_main_v3 (ix2 p s) k = ix2 p k :=
  funext fun a => Fin.ext (by match a with | ⟨0, _⟩ => rfl | ⟨1, _⟩ => rfl)

/-- The transposed W_B is read at (s, k). -/
theorem ridx_v3_ix (p : Fin 2048) (s : Fin 16) (k : Fin 2048) : idx_main_v2 (ridx_main_v3 (ix2 p s) k) = ix2 s k :=
  funext fun a => Fin.ext (by match a with | ⟨0, _⟩ => rfl | ⟨1, _⟩ => rfl)

/-- The left operand of the dot product with W_C is read at (p, k). -/
theorem lidx_v5_ix (p : Fin 2048) (s : Fin 16) (k : Fin 2048) : lidx_main_v5 (ix2 p s) k = ix2 p k :=
  funext fun a => Fin.ext (by match a with | ⟨0, _⟩ => rfl | ⟨1, _⟩ => rfl)

/-- The transposed W_C is read at (s, k). -/
theorem ridx_v5_ix (p : Fin 2048) (s : Fin 16) (k : Fin 2048) : idx_main_v4 (ridx_main_v5 (ix2 p s) k) = ix2 s k :=
  funext fun a => Fin.ext (by match a with | ⟨0, _⟩ => rfl | ⟨1, _⟩ => rfl)

/-- The left operand of the dot product with W_Δ is read at (p, k). -/
theorem lidx_v7_ix (p d k : Fin 2048) : lidx_main_v7 (ix2 p d) k = ix2 p k :=
  funext fun a => Fin.ext (by match a with | ⟨0, _⟩ => rfl | ⟨1, _⟩ => rfl)

/-- The transposed W_Δ is read at (d, k). -/
theorem ridx_v7_ix (p d k : Fin 2048) : idx_main_v6 (ridx_main_v7 (ix2 p d) k) = ix2 d k :=
  funext fun a => Fin.ext (by match a with | ⟨0, _⟩ => rfl | ⟨1, _⟩ => rfl)

/-- A vector broadcast along the rows is read at its column d. -/
theorem idx_v9_ix (p d : Fin 2048) : idx_main_v8 (idx_main_v9 (ix2 p d)) = ix1 d :=
  funext fun a => Fin.ext (by match a with | ⟨0, _⟩ => rfl)

/-! ## The dot products -/

/-- B[p, s] = Σₖ x[p, k] · W_B[s, k]. -/
theorem ref_B (x0 : SX.Idx → EReal) (x3 : SW.Idx → EReal) (p : Fin 2048) (s : Fin 16) :
    val_main_v3 (F := Ideal) x0 x3 (ix2 p s) = rowDot x0 x3 p s := by
  rw [val_main_v3_apply]
  unfold rowDot
  refine Finset.sum_congr rfl fun k _ => ?_
  rw [val_main_v2_apply, lidx_v3_ix, ridx_v3_ix]

/-- C[p, s] = Σₖ x[p, k] · W_C[s, k]. -/
theorem ref_C (x0 : SX.Idx → EReal) (x4 : SW.Idx → EReal) (p : Fin 2048) (s : Fin 16) :
    val_main_v5 (F := Ideal) x0 x4 (ix2 p s) = rowDot x0 x4 p s := by
  rw [val_main_v5_apply]
  unfold rowDot
  refine Finset.sum_congr rfl fun k _ => ?_
  rw [val_main_v4_apply, lidx_v5_ix, ridx_v5_ix]

/-- The argument of softplus: Σₖ x[p, k] · W_Δ[d, k] + b_Δ[d]. -/
theorem ref_pre (x0 x5 : SX.Idx → EReal) (x6 : SV.Idx → EReal) (p d : Fin 2048) :
    val_main_v10 (F := Ideal) x0 x5 x6 (ix2 p d) = rowDot x0 x5 p d + x6 (ix1 d) := by
  rw [val_main_v10_apply, val_main_v7_apply, val_main_v9_apply, val_main_v8_apply, idx_v9_ix, Ideal.addf_def]
  unfold rowDot
  refine congrArg (· + x6 (ix1 d)) (Finset.sum_congr rfl fun k _ => ?_)
  rw [val_main_v6_apply, lidx_v7_ix, ridx_v7_ix]

/-! ## The step size Δ -/

/-- On the extended reals every two values are ordered, so no value differs from itself: the bit of the
    comparison "z ≠ z" is 0. -/
theorem cmp_une_self (z : EReal) : Ideal.cmp .une z z = 0#1 := by
  simp [Ideal.cmp]

/-- Δ[p, d] = softplus (Σₖ x[p, k] · W_Δ[d, k] + b_Δ[d]). The program selects, on "z − 0 ≠ z − 0", between z + 0 and
    max z 0 + log1p (exp (−|z − 0|)); the condition never holds, and z − 0 = z. -/
theorem ref_delta (x0 x5 : SX.Idx → EReal) (x6 : SV.Idx → EReal) (p d : Fin 2048) :
    val_main_v11 (F := Ideal) x0 x5 x6 (ix2 p d) = delta x0 x5 x6 p d := by
  rw [val_main_v11_apply, val_main_call0_v4_apply, Ideal.cmpf_def, cmp_une_self, select_zero,
    val_main_call0_v11_apply, val_main_call0_v1_apply, val_main_call0_v10_apply, val_main_call0_v9_apply,
    val_main_call0_v8_apply, val_main_call0_v7_apply, val_main_call0_v3_apply, val_main_call0_v0_apply,
    val_main_call0_v2_apply, ref_pre]
  simp only [val_main_call0_cst_apply, Ideal.addf_def, Ideal.subf_def, Ideal.maximumf_def, Ideal.hostUnary_exp_def,
    Ideal.hostUnary_log1p_def, Ideal.hostNegf_def, Ideal.negf_def, Ideal.hostAbsf_def, Ideal.absf_def, Ideal.ofBits_def,
    Ideal.ofBits_zero_f32, sub_zero]
  rfl

/-! ## The new state -/

/-- Δ broadcast along the state axis is read at (p, d). -/
theorem idx_v14_ix (p d : Fin 2048) (s : Fin 16) : idx_main_v12 (idx_main_v14 (ix3 p d s)) = ix2 p d :=
  funext fun a => Fin.ext (by match a with | ⟨0, _⟩ => rfl | ⟨1, _⟩ => rfl)

/-- −exp A_log broadcast along the batch axis is read at (d, s). -/
theorem idx_v15_ix (p d : Fin 2048) (s : Fin 16) : idx_main_v13 (idx_main_v15 (ix3 p d s)) = ix2 d s :=
  funext fun a => Fin.ext (by match a with | ⟨0, _⟩ => rfl | ⟨1, _⟩ => rfl)

/-- Δ, broadcast a second time along the state axis, is read at (p, d). -/
theorem idx_v20_ix (p d : Fin 2048) (s : Fin 16) : idx_main_v18 (idx_main_v20 (ix3 p d s)) = ix2 p d :=
  funext fun a => Fin.ext (by match a with | ⟨0, _⟩ => rfl | ⟨1, _⟩ => rfl)

/-- B broadcast along the channel axis is read at (p, s). -/
theorem idx_v21_ix (p d : Fin 2048) (s : Fin 16) : idx_main_v19 (idx_main_v21 (ix3 p d s)) = ix2 p s :=
  funext fun a => Fin.ext (by match a with | ⟨0, _⟩ => rfl | ⟨1, _⟩ => rfl)

/-- x broadcast along the state axis is read at (p, d). -/
theorem idx_v25_ix (p d : Fin 2048) (s : Fin 16) : idx_main_v24 (idx_main_v25 (ix3 p d s)) = ix2 p d :=
  funext fun a => Fin.ext (by match a with | ⟨0, _⟩ => rfl | ⟨1, _⟩ => rfl)

/-- state'[p, d, s] = exp (Δ[p, d] · (−exp A_log[d, s])) · state[p, d, s] + (Δ[p, d] · B[p, s]) · x[p, d]. -/
theorem ref_state_at (x0 : SX.Idx → EReal) (x1 : SP.Idx → EReal) (x2 : SA.Idx → EReal) (x3 : SW.Idx → EReal)
    (x5 : SX.Idx → EReal) (x6 : SV.Idx → EReal) (p d : Fin 2048) (s : Fin 16) :
    val_main_v27 (F := Ideal) x0 x1 x2 x3 x5 x6 (ix3 p d s) = stateNew x0 x1 x2 x3 x5 x6 p d s := by
  rw [val_main_v27_apply, val_main_v23_apply, val_main_v17_apply, val_main_v16_apply, val_main_v14_apply,
    val_main_v12_apply, idx_v14_ix, val_main_v15_apply, val_main_v13_apply, idx_v15_ix, val_main_v1_apply,
    val_main_v0_apply, val_main_v26_apply, val_main_v22_apply, val_main_v20_apply, val_main_v18_apply, idx_v20_ix,
    val_main_v21_apply, val_main_v19_apply, idx_v21_ix, val_main_v25_apply, val_main_v24_apply, idx_v25_ix,
    ref_delta, ref_B]
  simp only [Ideal.addf_def, Ideal.mulf_def, Ideal.hostUnary_exp_def, Ideal.hostNegf_def, Ideal.negf_def]
  rfl

/-- The program's state result is the specification's new state. -/
theorem ref_state (x0 : SX.Idx → EReal) (x1 : SP.Idx → EReal) (x2 : SA.Idx → EReal) (x3 : SW.Idx → EReal)
    (x5 : SX.Idx → EReal) (x6 : SV.Idx → EReal) :
    val_main_v27 (F := Ideal) x0 x1 x2 x3 x5 x6 = stateArr x0 x1 x2 x3 x5 x6 := by
  funext i
  obtain ⟨p, d, s, rfl⟩ : ∃ (p d : Fin 2048) (s : Fin 16), i = ix3 p d s := ⟨i 0, i 1, i 2, eq_ix3 i⟩
  rw [ref_state_at, stateArr_ix3]

/-! ## The output -/

/-- The sum over the state axis reads its operand at (p, d, s). -/
theorem idx_v31_ix (p d : Fin 2048) (s : Fin 16) : idx_main_v31 (ix2 p d) s = ix3 p d s :=
  funext fun a => Fin.ext (by match a with | ⟨0, _⟩ => rfl | ⟨1, _⟩ => rfl | ⟨2, _⟩ => rfl)

/-- C broadcast along the channel axis is read at (p, s). -/
theorem idx_v29_ix (p d : Fin 2048) (s : Fin 16) : idx_main_v28 (idx_main_v29 (ix3 p d s)) = ix2 p s :=
  funext fun a => Fin.ext (by match a with | ⟨0, _⟩ => rfl | ⟨1, _⟩ => rfl)

/-- D broadcast along the rows is read at its column d. -/
theorem idx_v33_ix (p d : Fin 2048) : idx_main_v32 (idx_main_v33 (ix2 p d)) = ix1 d :=
  funext fun a => Fin.ext (by match a with | ⟨0, _⟩ => rfl)

/-- y[p, d] = Σₛ state'[p, d, s] · C[p, s] + D[d] · x[p, d]; the program's sum starts from the constant 0. -/
theorem ref_y_at (x0 : SX.Idx → EReal) (x1 : SP.Idx → EReal) (x2 : SA.Idx → EReal) (x3 x4 : SW.Idx → EReal)
    (x5 : SX.Idx → EReal) (x6 x7 : SV.Idx → EReal) (p d : Fin 2048) :
    val_main_v35 (F := Ideal) x0 x1 x2 x3 x4 x5 x6 x7 (ix2 p d) = yNew x0 x1 x2 x3 x4 x5 x6 x7 p d := by
  rw [val_main_v35_apply, val_main_v31_apply, val_main_cst_apply, val_main_v34_apply, val_main_v33_apply,
    val_main_v32_apply, idx_v33_ix]
  simp only [Ideal.addf_def, Ideal.mulf_def, Ideal.ofBits_def, Ideal.ofBits_zero_f32, zero_add]
  unfold yNew
  refine congrArg (· + x7 (ix1 d) * x0 (ix2 p d)) (Finset.sum_congr rfl fun s _ => ?_)
  rw [val_main_v30_apply, idx_v31_ix, ref_state_at, val_main_v29_apply, val_main_v28_apply, idx_v29_ix, ref_C,
    Ideal.mulf_def]

/-- The program's output result is the specification's output. -/
theorem ref_y (x0 : SX.Idx → EReal) (x1 : SP.Idx → EReal) (x2 : SA.Idx → EReal) (x3 x4 : SW.Idx → EReal)
    (x5 : SX.Idx → EReal) (x6 x7 : SV.Idx → EReal) :
    val_main_v35 (F := Ideal) x0 x1 x2 x3 x4 x5 x6 x7 = yArr x0 x1 x2 x3 x4 x5 x6 x7 := by
  funext i
  obtain ⟨p, d, rfl⟩ : ∃ (p d : Fin 2048), i = ix2 p d := ⟨i 0, i 1, eq_ix2 i⟩
  rw [ref_y_at, yArr_ix2]

end Cert.Ssm.Ref

end
-- ==== Proof.lean ====
/-
  One step of a selective state-space layer: a kernel in two regions against its plain reference, equal as extended reals.

  With Δ = softplus (x · W_Δᵀ + b_Δ), B = x · W_Bᵀ, C = x · W_Cᵀ and A = −exp A_log, both programs compute
    state'[p, d, s] = exp (Δ[p, d] · A[d, s]) · state[p, d, s] + (Δ[p, d] · B[p, s]) · x[p, d]
    y[p, d]         = Σₛ state'[p, d, s] · C[p, s] + D[d] · x[p, d].
  The reference does so with broadcasts over a [batch, channel, coordinate] array. The kernel computes the three
  projections in a first region (256 rows at a time) and the update in a second one on a flattened [batch,
  channel·16 + coordinate] layout, spreading per-channel and per-coordinate values over the lanes, and summing each
  channel's 16 lanes, by products with 0/1 matrices. Over the extended reals a change of float format is the
  identity, a matrix product is the plain finite sum, and a product with a 0/1 matrix picks out or adds up exactly the
  entries meant (v · 1 = v, v · 0 = 0 and a + 0 = a for every extended real), so both programs end with the same
  two arrays, entry by entry; no finiteness of the inputs is used. The three programs' runs terminate, fault nowhere
  and leave their arguments unchanged, and the kernel's idealization rewrote nothing.
-/
import proofs.«168947_j73134703116522_2_alg».proof.Defs
import proofs.«168947_j73134703116522_2_alg».proof.Proof.Gen.Kernel
import proofs.«168947_j73134703116522_2_alg».proof.Proof.Gen.Kernel.Skeleton
import proofs.«168947_j73134703116522_2_alg».proof.Proof.Gen.Kernel.Launch
import proofs.«168947_j73134703116522_2_alg».proof.Proof.Gen.Kernel.Points
import proofs.«168947_j73134703116522_2_alg».proof.Proof.Gen.Kernel.Frame
import proofs.«168947_j73134703116522_2_alg».proof.Proof.Gen.KernelIdeal
import proofs.«168947_j73134703116522_2_alg».proof.Proof.Gen.KernelIdeal.Skeleton
import proofs.«168947_j73134703116522_2_alg».proof.Proof.Gen.KernelIdeal.Launch
import proofs.«168947_j73134703116522_2_alg».proof.Proof.Gen.KernelIdeal.Points
import proofs.«168947_j73134703116522_2_alg».proof.Proof.Gen.KernelIdeal.Frame
import proofs.«168947_j73134703116522_2_alg».proof.Proof.Gen.ReferenceIdeal
import proofs.«168947_j73134703116522_2_alg».proof.Proof.Gen.Pre_finite_inputs
import proofs.«168947_j73134703116522_2_alg».proof.Proof.Gen.ReferenceIdeal.Run
import proofs.«168947_j73134703116522_2_alg».proof.Proof.Gen.ReferenceIdeal.Read
import proofs.«168947_j73134703116522_2_alg».proof.Proof.KernelRun
import proofs.«168947_j73134703116522_2_alg».proof.Proof.KernelValue
import proofs.«168947_j73134703116522_2_alg».proof.Proof.RefValue
import Idealize.ShloMosaic.Adequacy
import Idealize.ShloMosaic.Init

noncomputable section

namespace Cert.Proof

open Idealize.ShloMosaic Idealize.SL.Sem

/-- The kernel program as printed runs, and leaves its arguments unchanged. -/
theorem frame_kernel : Cert.frame_Kernel := fun m ρ _ => Cert.Kernel.Gen.frame m ρ

/-- The idealized kernel program runs, and leaves its arguments unchanged. -/
theorem frame_kernelIdeal : Cert.frame_KernelIdeal := fun m ρ _ => Cert.KernelIdeal.Gen.frame m ρ

/-- The idealized reference runs, and leaves its arguments unchanged: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs end with the specification's output and new state of the (agreeing) arguments. -/
theorem algebraic : Cert.algebraic_KernelIdeal_ReferenceIdeal := by
  intro m ρ m' ρ' _ hagree
  refine ⟨fun c => Cert.Ssm.yArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.Ssm.stateArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.Ssm.Value.y_result m ρ c), (h c).2.1.trans (Cert.Ssm.Value.state_result m ρ c), (h c).2.2⟩)
      (Cert.Ssm.Run.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v35_eq, Cert.Ssm.Ref.ref_y, (hagree c).1, (hagree c).2.1, (hagree c).2.2.1,
        (hagree c).2.2.2.1, (hagree c).2.2.2.2.1, (hagree c).2.2.2.2.2.1, (hagree c).2.2.2.2.2.2.1, (hagree c).2.2.2.2.2.2.2]
    · rw [Cert.ReferenceIdeal.Read.val_main_v27_eq, Cert.Ssm.Ref.ref_state, (hagree c).1, (hagree c).2.1, (hagree c).2.2.1,
        (hagree c).2.2.2.1, (hagree c).2.2.2.2.2.1, (hagree c).2.2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
